-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S8192x8192 : Shape := ⟨2, ![8192, 8192]⟩
abbrev S256x1024 : Shape := ⟨2, ![256, 1024]⟩
abbrev S2048x1024 : Shape := ⟨2, ![2048, 1024]⟩
abbrev S256x8192 : Shape := ⟨2, ![256, 8192]⟩
abbrev S256x1 : Shape := ⟨2, ![256, 1]⟩
abbrev S256x2048 : Shape := ⟨2, ![256, 2048]⟩
abbrev S256 : Shape := ⟨1, ![256]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S8192x8192, .f32⟩
  | .local _ .vmem, ⟨0, _⟩ => ⟨S256x1024, .bf16⟩
  | .local _ .vmem, ⟨1, _⟩ => ⟨S2048x1024, .bf16⟩
  | .local _ .vmem, ⟨2, _⟩ => ⟨S2048x1024, .bf16⟩
  | .local _ .vmem, ⟨3, _⟩ => ⟨S256x8192, .f32⟩
  | .local _ .vmem, ⟨4, _⟩ => ⟨S256x8192, .f32⟩
  | .local _ .vmem, ⟨5, _⟩ => ⟨S256x1, .f32⟩
  | .local _ .vmem, ⟨6, _⟩ => ⟨S256x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg1 : BitVec 32 := BitVec.ofNat 32 (i 1).val
  let c2048_i32 : BitVec 32 := 2048#32
  let v29 : BitVec 32 := Scalar.muli arg1 c2048_i32
  v29
def k0_off1 (i : grid0.Coords) : Fin 2 → Nat :=
  let c0_16 : Index := 0#32
  let arg1 : BitVec 32 := BitVec.ofNat 32 (i 1).val
  let c2048_i32 : BitVec 32 := 2048#32
  let v29 : BitVec 32 := Scalar.muli arg1 c2048_i32
  let v30 : BitVec 32 := v29
  let v31 : Index := Scalar.indexCast v30
  ![0, v31.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  reduces_S256x2048_S256 : S256x2048.Reduces [1] S256
  shapeCasts_S256_S256x1 : S256.ShapeCasts S256x1
  broadcasts_S256x1_S256x2048 : S256x1.Broadcasts S256x2048
  h_S256x2048 : 0 < S256x2048.numel
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  broadcasts_S256x1_S256x8192 : S256x1.Broadcasts S256x8192
  dot_S256x1024_S2048x1024_S256x2048_1_1_0_0_n_n_wf : DotDims.WF S256x1024 S2048x1024 S256x2048 [1] [1] [0] [0] [] []
  hrank0 : 0 < grid0.rank
  k0_mult1_dvd : ∀ i : grid0.Coords, 128 ∣ (k0_mult1 i).toNat
  k0_off1_inb : ∀ i : grid0.Coords, ∀ a, (k0_off1 i) a + S256x2048.size a ≤ S256x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .bf16 = 32 ∨ (Rect.block (s := S8192x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S8192x1024.size a
  hwx0_1 : ∀ i : grid0.Coords, EltTy.bits .bf16 = 32 ∨ (Rect.block (s := S8192x1024) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x8192.size a ≤ S8192x8192.size a
  hwx0_2 : ∀ i : grid0.Coords, EltTy.bits .f32 = 32 ∨ (Rect.block (s := S8192x8192) S256x8192.size (cc0_transform_2 i) (hinb0_2 i)).WholeWords (EltTy.packing .f32)

variable [Facts₀]

def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf

abbrev win0_0 : Pipeline.Window sig grid0 :=
  Pipeline.Window.ofSpec (Memref.whole main_v0) S256x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x8192, .f32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S8192x1, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S8192x8192, .f32⟩
  | .hbm, ⟨16, _⟩ => ⟨S8192x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x1024_S8192x1024_S8192x8192_1_1_0_0_n_n_wf : DotDims.WF S8192x1024 S8192x1024 S8192x8192 [1] [1] [0] [0] [] []

variable [Facts₀]

def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf

class Facts : Prop extends Facts₀ where

variable [Facts]
-- ==== Proof.K.Conds.lean ====
/-
  The fused row-softmax kernel's control, decided over its 32 x 4 grid: the accumulators are reset at the first
  column tile of a row tile (point = 0 mod 4), the strip of raw scores is normalised in place at the last one
  (point = 3 mod 4), and the column strip a point stores its scores into starts at column 2048 * (point mod 4).
  Also the staging and scratch memrefs the body is called with, and the region's resting invariant with the two
  scratch columns (running maximum, running denominator) spelled out.
-/
import proofs.«122358_j90795608637906_2_alg».proof.Proof.Gen.Kernel.Launch
import proofs.«122358_j90795608637906_2_alg».proof.Proof.Gen.Kernel.Skeleton
import proofs.«122358_j90795608637906_2_alg».proof.Proof.Gen.Kernel.Points
import proofs.«122358_j90795608637906_2_alg».proof.Proof.Gen.Kernel.Frame
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

/-- The body resets its accumulators: the column-tile coordinate is 0. -/
abbrev condReset (i : grid0.Coords) : Prop :=
  (Scalar.cmpi .ne (Scalar.extui (Scalar.cmpi .eq (BitVec.ofNat 32 (i 1).val) 0#32)) 0#32) = 1#1
/-- The body normalises the strip: the column-tile coordinate is 3, the last. -/
abbrev condLast (i : grid0.Coords) : Prop :=
  (Scalar.cmpi .ne (Scalar.extui (Scalar.cmpi .eq (BitVec.ofNat 32 (i 1).val) 3#32)) 0#32) = 1#1

theorem condReset_iff : ∀ t : Fin cfg0.N, condReset (grid0.coords t) ↔ t.val % 4 = 0 :=
  (by decide +kernel : ∀ t : Fin grid0.N, condReset (grid0.coords t) ↔ t.val % 4 = 0)
theorem condLast_iff : ∀ t : Fin cfg0.N, condLast (grid0.coords t) ↔ t.val % 4 = 3 :=
  (by decide +kernel : ∀ t : Fin grid0.N, condLast (grid0.coords t) ↔ t.val % 4 = 3)

/-- The strip a point stores into starts at row 0, column 2048 * (point mod 4). -/
theorem off_eq : ∀ t : Fin cfg0.N, k0_off1 (grid0.coords t) = ![0, 2048 * (t.val % 4)] :=
  (by decide +kernel : ∀ t : Fin grid0.N, k0_off1 (grid0.coords t) = ![0, 2048 * (t.val % 4)])

/-- Each window's current staging memref at a point, as the pipeline passes it, and that it is a whole buffer. -/
abbrev ms0 (t : Fin cfg0.N) : Memref sig .tc .vmem S256x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x8192 .f32 := win0_2.stage (cfg0.slots t 2)
abbrev hs2 (t : Fin cfg0.N) : (ms2 t).IsWhole := hstage0_2 ((cfg0.slots t 2).cast nbuf0_2)
/-- The two scratch columns: the running maximum and the running denominator. -/
abbrev scM : Memref sig .tc .vmem S256x1 .f32 := Memref.whole cc0_scratch0
abbrev scL : Memref sig .tc .vmem S256x1 .f32 := Memref.whole cc0_scratch1

/-- The region's resting invariant: both scratch columns at some contents, the generator register at some state. -/
theorem PhiA_eq (c : Dev nD) :
    (Pipeline.ΦA spec0 c : sProp 𝕄)
      = iprop(iprop((∃ d, owns (c : Thread nD τ) scM fullShare d) ∗ (∃ d, owns (c : Thread nD τ) scL fullShare d)) ∗ (∃ r, prngReg c r)) := by
  unfold Pipeline.ΦA; rw [scopedRest0_eq]; simp only [scM, scL, owns_whole]; try rfl

end Cert.Kernel.Body

end
-- ==== Proof.K.RunA.lean ====
/-
  The body run symbolically at the first column tile of a row tile (the accumulators are reset first, so the scratch columns may hold anything): from the two input tiles, the output strip buffer at any contents and the
  scratch columns, it ends with the inputs as they were and each written buffer at its old contents overwritten by
  a list of stored pieces (newest first), which the run finds.
-/
import proofs.«122358_j90795608637906_2_alg».proof.Proof.K.Conds

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the output strip buffer (over the contents `y2` it was handed) and in the
    two scratch columns, with the body's triple ending at exactly those. -/
noncomputable def runA (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S256x8192 .f32) (harg4 : arg4.IsWhole) (arg5 : Memref sig .tc .vmem S256x1 .f32) (harg5 : arg5.IsWhole) (arg6 : Memref sig .tc .vmem S256x1 .f32) (harg6 : arg6.IsWhole) (hc0 : condReset i) (hc1 : ¬condLast i)
    (x0 : Vec F S256x1024 .bf16) (x1 : Vec F S2048x1024 .bf16) (y2 : Vec F S256x8192 .f32) :
    Σ' (L2 : List (View.Piece (Elt F) S256x8192 .f32)) (LS0 : List (View.Piece (Elt F) S256x1 .f32)), { LS1 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare y2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1
                ∗ (arg4.view.loc (c : Thread nD τ) ↦[arg4.view.set]{fullShare} arg4.view.writes (Elt F) (harg4.unread y2) L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__fused_kernel i arg2 harg2 arg3 harg3 arg4 harg4 arg5 harg5 arg6 harg6) K } := by
  refine ⟨?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    isplitl [HS0]; · iexists _; iexact HS0
    iexists _; iexact HS1

end Cert.Kernel.Body

end
-- ==== Proof.K.RunB.lean ====
/-
  The body run symbolically at a middle column tile (no reset, no normalisation): from the two input tiles, the output strip buffer at any contents and the
  scratch columns, it ends with the inputs as they were and each written buffer at its old contents overwritten by
  a list of stored pieces (newest first), which the run finds.
-/
import proofs.«122358_j90795608637906_2_alg».proof.Proof.K.RunA

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the output strip buffer (over the contents `y2` it was handed) and in the
    two scratch columns, with the body's triple ending at exactly those. -/
noncomputable def runB (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S256x8192 .f32) (harg4 : arg4.IsWhole) (arg5 : Memref sig .tc .vmem S256x1 .f32) (harg5 : arg5.IsWhole) (arg6 : Memref sig .tc .vmem S256x1 .f32) (harg6 : arg6.IsWhole) (hc0 : ¬condReset i) (hc1 : ¬condLast i)
    (x0 : Vec F S256x1024 .bf16) (x1 : Vec F S2048x1024 .bf16) (y2 : Vec F S256x8192 .f32) (xs0 : Vec F S256x1 .f32) (xs1 : Vec F S256x1 .f32) :
    Σ' (L2 : List (View.Piece (Elt F) S256x8192 .f32)) (LS0 : List (View.Piece (Elt F) S256x1 .f32)), { LS1 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare y2 ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (arg4.view.loc (c : Thread nD τ) ↦[arg4.view.set]{fullShare} arg4.view.writes (Elt F) (harg4.unread y2) L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__fused_kernel i arg2 harg2 arg3 harg3 arg4 harg4 arg5 harg5 arg6 harg6) K } := by
  refine ⟨?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    isplitl [HS0]; · iexists _; iexact HS0
    iexists _; iexact HS1

end Cert.Kernel.Body

end
-- ==== Proof.K.RunC.lean ====
/-
  The body run symbolically at the last column tile (no reset; the whole strip is normalised in place at the end): from the two input tiles, the output strip buffer at any contents and the
  scratch columns, it ends with the inputs as they were and each written buffer at its old contents overwritten by
  a list of stored pieces (newest first), which the run finds.
-/
import proofs.«122358_j90795608637906_2_alg».proof.Proof.K.RunB

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the output strip buffer (over the contents `y2` it was handed) and in the
    two scratch columns, with the body's triple ending at exactly those. -/
noncomputable def runC (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S256x8192 .f32) (harg4 : arg4.IsWhole) (arg5 : Memref sig .tc .vmem S256x1 .f32) (harg5 : arg5.IsWhole) (arg6 : Memref sig .tc .vmem S256x1 .f32) (harg6 : arg6.IsWhole) (hc0 : ¬condReset i) (hc1 : condLast i)
    (x0 : Vec F S256x1024 .bf16) (x1 : Vec F S2048x1024 .bf16) (y2 : Vec F S256x8192 .f32) (xs0 : Vec F S256x1 .f32) (xs1 : Vec F S256x1 .f32) :
    Σ' (L2 : List (View.Piece (Elt F) S256x8192 .f32)) (LS0 : List (View.Piece (Elt F) S256x1 .f32)), { LS1 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare y2 ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (arg4.view.loc (c : Thread nD τ) ↦[arg4.view.set]{fullShare} arg4.view.writes (Elt F) (harg4.unread y2) L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__fused_kernel i arg2 harg2 arg3 harg3 arg4 harg4 arg5 harg5 arg6 harg6) K } := by
  refine ⟨?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    isplitl [HS0]; · iexists _; iexact HS0
    iexists _; iexact HS1

end Cert.Kernel.Body

end
-- ==== Proof.K.Out.lean ====
/-
  What the body's stores leave, as explicit functions of what it was handed.

  The output strip buffer: a point overwrites the column strip that starts at the point's offset by its tile of raw
  scores and leaves the other columns as they were (`stripAt`); at a row tile's last point it then replaces the whole
  buffer by e^(strip - (m + log l)), m and l the scratch columns it has just updated. The two scratch columns: the new
  running maximum and the new running denominator, as the printed payload terms over the tiles and the old columns.
  Each list of pieces a run found is identified here, and read back through the buffer.
-/
import proofs.«122358_j90795608637906_2_alg».proof.Proof.K.RunC
import Idealize.ShloMosaic.Lib.WritesUnit
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

/-- Contents `y` with the 256 x 2048 strip at offsets `off` overwritten by `s`. -/
def stripAt (off : Fin 2 → ℕ) (y : Vec F S256x8192 .f32) (s : Vec F S256x2048 .f32) : Vec F S256x8192 .f32 :=
  fun j => if h : ∀ a, off a ≤ (j a).val ∧ (j a).val < off a + S256x2048.size a then
      s (Rect.unitLocal (s := S256x8192) (off := off) (size := S256x2048.size) j h)
    else y j

theorem zero2 : (![0, 0] : Fin 2 → ℕ) = fun _ => 0 :=
  funext fun a => by match a with | ⟨0, _⟩ => rfl | ⟨1, _⟩ => rfl

/-- One store of a strip into a whole buffer at contents `y`, read back. -/
theorem read_strip (M : Memref sig .tc .vmem S256x8192 .f32) (hM : M.IsWhole) (off : Fin 2 → ℕ)
    (inb : ∀ a, off a + S256x2048.size a ≤ S256x8192.size a) (y : Vec F S256x8192 .f32) (s : Vec F S256x2048 .f32) :
    M.view.read (Elt F) (M.view.writes (Elt F) (hM.unread y) [⟨Rect.unit off S256x2048.size inb, s⟩]) = stripAt off y s := by
  funext j
  rw [View.read_writes_cons_unit M.view (hM.unread y) inb s [] j rfl]
  unfold stripAt
  split
  · rfl
  · rw [View.writes_nil, hM.read_unread]

/-- A list of stores whose newest fills the whole buffer reads back as that store's payload. -/
theorem read_whole_head {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## A middle point -/

section B
variable (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S256x8192 .f32) (harg4 : arg4.IsWhole) (arg5 : Memref sig .tc .vmem S256x1 .f32) (harg5 : arg5.IsWhole) (arg6 : Memref sig .tc .vmem S256x1 .f32) (harg6 : arg6.IsWhole) (hc0 : ¬condReset i) (hc1 : ¬condLast i)
  (x0 : Vec F S256x1024 .bf16) (x1 : Vec F S2048x1024 .bf16) (y2 : Vec F S256x8192 .f32) (xs0 xs1 : Vec F S256x1 .f32)

theorem runB_strip :
    arg4.view.read (Elt F) (arg4.view.writes (Elt F) (harg4.unread y2) (runB c i arg2 harg2 arg3 harg3 arg4 harg4 arg5 harg5 arg6 harg6 hc0 hc1 x0 x1 y2 xs0 xs1).1)
      = stripAt (k0_off1 i) y2 (k0_pay4 x0 x1) := by
  rw [← read_strip arg4 harg4 (k0_off1 i) (k0_off1_inb i) y2 (k0_pay4 x0 x1)]
  unfold runB; dsimp only; sl_unfold_words
  simp only [View.readAt_eq_ld, harg2.read_unread, harg3.read_unread, View.ld_unit_zero (S := S256x1024) zero2, View.ld_unit_zero (S := S2048x1024) zero2]

theorem runB_max (f : arg5.view.ty.Contents (Elt F)) :
    arg5.view.read (Elt F) (arg5.view.writes (Elt F) f (runB c i arg2 harg2 arg3 harg3 arg4 harg4 arg5 harg5 arg6 harg6 hc0 hc1 x0 x1 y2 xs0 xs1).2.1)
      = k0_pay7 x0 x1 xs0 := by
  unfold runB; dsimp only; sl_unfold_words
  rw [read_whole_head _ _ zero2]
  simp only [View.readAt_eq_ld, harg2.read_unread, harg3.read_unread, harg5.read_unread, View.ld_unit_zero (S := S256x1024) zero2, View.ld_unit_zero (S := S2048x1024) zero2, View.ld_unit_zero (S := S256x1) zero2]

theorem runB_den (f : arg6.view.ty.Contents (Elt F)) :
    arg6.view.read (Elt F) (arg6.view.writes (Elt F) f (runB c i arg2 harg2 arg3 harg3 arg4 harg4 arg5 harg5 arg6 harg6 hc0 hc1 x0 x1 y2 xs0 xs1).2.2.1)
      = k0_pay6 x0 x1 xs0 xs0 xs1 := by
  unfold runB; dsimp only; sl_unfold_words
  rw [read_whole_head _ _ zero2]
  simp only [View.readAt_eq_ld, harg2.read_unread, harg3.read_unread, harg5.read_unread, harg6.read_unread, View.ld_unit_zero (S := S256x1024) zero2, View.ld_unit_zero (S := S2048x1024) zero2, View.ld_unit_zero (S := S256x1) zero2]

end B

/-! ## A row tile's first point -/

section A
variable (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S256x8192 .f32) (harg4 : arg4.IsWhole) (arg5 : Memref sig .tc .vmem S256x1 .f32) (harg5 : arg5.IsWhole) (arg6 : Memref sig .tc .vmem S256x1 .f32) (harg6 : arg6.IsWhole) (hc0 : condReset i) (hc1 : ¬condLast i)
  (x0 : Vec F S256x1024 .bf16) (x1 : Vec F S2048x1024 .bf16) (y2 : Vec F S256x8192 .f32)

theorem runA_strip :
    arg4.view.read (Elt F) (arg4.view.writes (Elt F) (harg4.unread y2) (runA c i arg2 harg2 arg3 harg3 arg4 harg4 arg5 harg5 arg6 harg6 hc0 hc1 x0 x1 y2).1)
      = stripAt (k0_off1 i) y2 (k0_pay4 x0 x1) := by
  rw [← read_strip arg4 harg4 (k0_off1 i) (k0_off1_inb i) y2 (k0_pay4 x0 x1)]
  unfold runA; dsimp only; sl_unfold_words
  simp only [View.readAt_eq_ld, harg2.read_unread, harg3.read_unread, View.ld_unit_zero (S := S256x1024) zero2, View.ld_unit_zero (S := S2048x1024) zero2]

theorem runA_max (f : arg5.view.ty.Contents (Elt F)) :
    arg5.view.read (Elt F) (arg5.view.writes (Elt F) f (runA c i arg2 harg2 arg3 harg3 arg4 harg4 arg5 harg5 arg6 harg6 hc0 hc1 x0 x1 y2).2.1)
      = k0_pay7 x0 x1 k0_pay2 := by
  unfold runA; dsimp only; sl_unfold_words
  rw [read_whole_head _ _ zero2]
  simp only [View.readAt_eq_ld, harg2.read_unread, harg3.read_unread, View.ld_unit_zero (S := S256x1024) zero2, View.ld_unit_zero (S := S2048x1024) zero2, View.readCov_unit_zero (S := S256x1) _ zero2]

theorem runA_den (f : arg6.view.ty.Contents (Elt F)) :
    arg6.view.read (Elt F) (arg6.view.writes (Elt F) f (runA c i arg2 harg2 arg3 harg3 arg4 harg4 arg5 harg5 arg6 harg6 hc0 hc1 x0 x1 y2).2.2.1)
      = k0_pay6 x0 x1 k0_pay2 k0_pay2 k0_pay3 := by
  unfold runA; dsimp only; sl_unfold_words
  rw [read_whole_head _ _ zero2]
  simp only [View.readAt_eq_ld, harg2.read_unread, harg3.read_unread, View.ld_unit_zero (S := S256x1024) zero2, View.ld_unit_zero (S := S2048x1024) zero2, View.readCov_unit_zero (S := S256x1) _ zero2]

end A

/-! ## A row tile's last point -/

section C
variable (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S256x8192 .f32) (harg4 : arg4.IsWhole) (arg5 : Memref sig .tc .vmem S256x1 .f32) (harg5 : arg5.IsWhole) (arg6 : Memref sig .tc .vmem S256x1 .f32) (harg6 : arg6.IsWhole) (hc0 : ¬condReset i) (hc1 : condLast i)
  (x0 : Vec F S256x1024 .bf16) (x1 : Vec F S2048x1024 .bf16) (y2 : Vec F S256x8192 .f32) (xs0 xs1 : Vec F S256x1 .f32)

theorem runC_out :
    arg4.view.read (Elt F) (arg4.view.writes (Elt F) (harg4.unread y2) (runC c i arg2 harg2 arg3 harg3 arg4 harg4 arg5 harg5 arg6 harg6 hc0 hc1 x0 x1 y2 xs0 xs1).1)
      = k0_pay1 (k0_pay7 x0 x1 xs0) (k0_pay6 x0 x1 xs0 xs0 xs1) (stripAt (k0_off1 i) y2 (k0_pay4 x0 x1)) := by
  rw [← read_strip arg4 harg4 (k0_off1 i) (k0_off1_inb i) y2 (k0_pay4 x0 x1)]
  unfold runC; dsimp only; sl_unfold_words
  rw [read_whole_head _ _ zero2]
  simp only [View.readAt_eq_ld, harg2.read_unread, harg3.read_unread, harg5.read_unread, harg6.read_unread, View.ld_unit_zero (S := S256x1024) zero2, View.ld_unit_zero (S := S2048x1024) zero2, View.ld_unit_zero (S := S256x1) zero2, View.ld_unit_zero (S := S256x8192) zero2, View.readCov_unit_zero (S := S256x1) _ zero2]

theorem runC_max (f : arg5.view.ty.Contents (Elt F)) :
    arg5.view.read (Elt F) (arg5.view.writes (Elt F) f (runC c i arg2 harg2 arg3 harg3 arg4 harg4 arg5 harg5 arg6 harg6 hc0 hc1 x0 x1 y2 xs0 xs1).2.1)
      = k0_pay7 x0 x1 xs0 := by
  unfold runC; dsimp only; sl_unfold_words
  rw [read_whole_head _ _ zero2]
  simp only [View.readAt_eq_ld, harg2.read_unread, harg3.read_unread, harg5.read_unread, View.ld_unit_zero (S := S256x1024) zero2, View.ld_unit_zero (S := S2048x1024) zero2, View.ld_unit_zero (S := S256x1) zero2]

theorem runC_den (f : arg6.view.ty.Contents (Elt F)) :
    arg6.view.read (Elt F) (arg6.view.writes (Elt F) f (runC c i arg2 harg2 arg3 harg3 arg4 harg4 arg5 harg5 arg6 harg6 hc0 hc1 x0 x1 y2 xs0 xs1).2.2.1)
      = k0_pay6 x0 x1 xs0 xs0 xs1 := by
  unfold runC; dsimp only; sl_unfold_words
  rw [read_whole_head _ _ zero2]
  simp only [View.readAt_eq_ld, harg2.read_unread, harg3.read_unread, harg5.read_unread, harg6.read_unread, View.ld_unit_zero (S := S256x1024) zero2, View.ld_unit_zero (S := S2048x1024) zero2, View.ld_unit_zero (S := S256x1) zero2]

end C

end Cert.Kernel.Body

end
-- ==== Proof.K.Data.lean ====
/-
  The proof data of the fused row-softmax pipeline, and its body obligation.

  Between points the region keeps: the two scratch columns at the running maximum and running denominator of the
  row tile's column tiles seen so far (`scAt`, by recursion on the point; anything before the first point), and the
  generator register. The two input windows' buffers are left as found. The output strip buffer is CONSTRAINED, not
  named: whatever it held, the point overwrites its own column strip by its tile of raw scores, and the row tile's
  last point then normalises the whole strip (`out2`) — before the first store of a row tile the buffer holds
  nothing the proof knows.
-/
import proofs.«122358_j90795608637906_2_alg».proof.Proof.K.Out
import Idealize.ShloMosaic.Lib.Pipeline.Frame

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch columns hold after each point -/

/-- One point's update of (running maximum, running denominator) from the two input tiles. -/
def scStep (u : Vec F S256x1024 .bf16) (w : Vec F S2048x1024 .bf16) (p : Vec F S256x1 .f32 × Vec F S256x1 .f32) :
    Vec F S256x1 .f32 × Vec F S256x1 .f32 :=
  (k0_pay7 u w p.1, k0_pay6 u w p.1 p.1 p.2)

/-- The scratch columns after point `n`: a row tile's first point starts from (-inf, 0). -/
def scAt (c : Dev nD) : (n : ℕ) → n < cfg0.N → Vec F S256x1 .f32 × Vec F S256x1 .f32
  | 0, hn => scStep (iblk m c 0 ⟨0, hn⟩) (iblk m c 1 ⟨0, hn⟩) (k0_pay2, k0_pay3)
  | n + 1, hn => scStep (iblk m c 0 ⟨n + 1, hn⟩) (iblk m c 1 ⟨n + 1, hn⟩)
      (if (n + 1) % 4 = 0 then (k0_pay2, k0_pay3) else scAt c n (Nat.lt_of_succ_lt hn))

theorem scAt_reset (c : Dev nD) (t : Fin cfg0.N) (h : t.val % 4 = 0) :
    scAt m c t.val t.isLt = scStep (iblk m c 0 t) (iblk m c 1 t) (k0_pay2, k0_pay3) := by
  obtain ⟨n, hn⟩ := t
  cases n with
  | zero => rfl
  | succ n => exact congrArg (scStep _ _) (if_pos h)

theorem scAt_carry (c : Dev nD) (t : Fin cfg0.N) (h : ¬t.val % 4 = 0) :
    scAt m c t.val t.isLt = scStep (iblk m c 0 t) (iblk m c 1 t)
      (scAt m c (t.val - 1) (Nat.lt_of_le_of_lt (Nat.sub_le _ _) t.isLt)) := by
  obtain ⟨n, hn⟩ := t
  cases n with
  | zero => exact absurd (Nat.zero_mod _) h
  | succ n => exact congrArg (scStep _ _) (if_neg h)

/-- The point's tile of raw scores. -/
def tileAt (c : Dev nD) (t : Fin cfg0.N) : Vec F S256x2048 .f32 := k0_pay4 (iblk m c 0 t) (iblk m c 1 t)

/-- What the point leaves in the output strip buffer, given what it found there. -/
def out2 (c : Dev nD) (t : Fin cfg0.N) (Y : Vec F S256x8192 .f32) : Vec F S256x8192 .f32 :=
  if t.val % 4 = 3 then
    k0_pay1 (scAt m c t.val t.isLt).1 (scAt m c t.val t.isLt).2 (stripAt (k0_off1 (grid0.coords t)) Y (tileAt m c t))
  else stripAt (k0_off1 (grid0.coords t)) Y (tileAt m c t)

/-- The region invariant before position `n`. -/
def PhiS (c : Dev nD) : (n : ℕ) → n ≤ cfg0.N → sProp 𝕄
  | 0, _ => Pipeline.ΦA spec0 c
  | n + 1, hn => iprop(iprop(owns (c : Thread nD τ) scM fullShare (scAt m c n hn).1 ∗ owns (c : Thread nD τ) scL fullShare (scAt m c n hn).2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (scAt m c n hn).1 ∗ owns (c : Thread nD τ) scL fullShare (scAt m c n hn).2) ∗ (∃ r, prngReg c r)) := rfl

theorem PhiS_pos (c : Dev nD) (n : ℕ) (h : n ≤ cfg0.N) (hz : n ≠ 0) :
    PhiS m c n h = iprop(iprop(owns (c : Thread nD τ) scM fullShare (scAt m c (n - 1) (by omega)).1 ∗ owns (c : Thread nD τ) scL fullShare (scAt m c (n - 1) (by omega)).2) ∗ (∃ r, prngReg c r)) := by
  cases n with
  | zero => exact absurd rfl hz
  | succ n => rfl

/-! ## The proof data -/

/-- The relational proof data on core `c`. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = out2 m c t Y
  Φ t := PhiS m c t.val (Nat.le_of_lt_succ t.isLt)
  q _ := fullShare
  owed _ := 0

theorem A_eq (c : Dev nD) (w : Fin cfg0.W) : (rdat m c).A w = V m c (Pipeline.arrRef spec0 w) := by
  dsimp only [rdat]

theorem Phi_castSucc (c : Dev nD) (t : Fin cfg0.N) :
    (rdat m c).Φ t.castSucc = PhiS m c t.val (Nat.le_of_lt t.isLt) := by
  dsimp only [rdat]; simp only [Fin.coe_castSucc]

theorem after0 (c : Dev nD) (t : Fin cfg0.N) (Y X) : (rdat m c).after 0 t Y X ↔ X = Y := by dsimp only [rdat]; exact Iff.rfl
theorem after1 (c : Dev nD) (t : Fin cfg0.N) (Y X) : (rdat m c).after 1 t Y X ↔ X = Y := by dsimp only [rdat]; exact Iff.rfl
theorem after2 (c : Dev nD) (t : Fin cfg0.N) (Y X) : (rdat m c).after 2 t Y X ↔ X = out2 m c t Y := by dsimp only [rdat]; exact Iff.rfl

/-- An input window's buffer holds the window's block at the point, fetched there or not. -/
theorem finds0 (c : Dev nD) (t : Fin cfg0.N) (Y) (h : (rdat m c).Finds 0 t Y) : Y = iblk m c 0 t := by
  obtain ⟨d, hd⟩ := (rdat m c).finds_in_eq_fetched 0 rfl (fun _ _ _ => rfl) (fun t Y X h => (after0 m c t Y X).mp h) t Y h
  rw [hd]; unfold RDat.fetched RDat.blockOf iblk; rw [A_eq]; try rfl
theorem finds1 (c : Dev nD) (t : Fin cfg0.N) (Y) (h : (rdat m c).Finds 1 t Y) : Y = iblk m c 1 t := by
  obtain ⟨d, hd⟩ := (rdat m c).finds_in_eq_fetched 1 rfl (fun _ _ _ => rfl) (fun t Y X h => (after1 m c t Y X).mp h) t Y h
  rw [hd]; unfold RDat.fetched RDat.blockOf iblk; rw [A_eq]; try rfl

/-! ## The body obligation -/

/-- What the body is called with at point `t`, the two input tiles at their blocks, the output strip buffer at `Y`, -/
def bodyPre (c : Dev nD) (t : Fin cfg0.N) (Y : Vec F S256x8192 .f32) : sProp 𝕄 :=
  iprop((rdat m c).Φ t.castSucc ∗ (rdat m c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare Y)

/-- and what it returns. -/
def bodyPost (c : Dev nD) (t : Fin cfg0.N) (Y : Vec F S256x8192 .f32) : sProp 𝕄 :=
  iprop((rdat m c).Φ t.succ ∗ (rdat m c).owesAt () t.succ
    ∗ owns (c : Thread nD τ) (ms0 t) fullShare (iblk m c 0 t)
    ∗ owns (c : Thread nD τ) (ms1 t) fullShare (iblk m c 1 t)
    ∗ owns (c : Thread nD τ) (ms2 t) fullShare (out2 m c t Y))

set_option maxHeartbeats 4800000 in
/-- The body at any point: which of the three control cases the point is in is decided by the point modulo 4; the
    invariant hands the run the scratch columns (at anything at a row tile's first point) and takes them back at
    this point's values; the strip buffer comes back overwritten as `out2` says. -/
theorem sound_body (c : Dev nD) (t : Fin cfg0.N) (Y : Vec F S256x8192 .f32) :
    bodyPre m c t Y ⊢ wp frame (wpE (defs₀ (F := F)) Variants.none c none) Set.univ (bodyAt0 t) (fun _ => bodyPost m c t Y) := by
  unfold bodyPre bodyPost bodyAt0
  rw [show (rdat m c).owesAt () t.succ = (rdat m c).owesAt () t.castSucc from rfl]
  rw [show (rdat m c).Φ t.succ = PhiS m c (t.val + 1) t.isLt from rfl, PhiS_succ]
  have hN : t.val < 128 := lt_of_lt_of_eq t.isLt (show cfg0.N = 128 from N_0)
  by_cases h0 : t.val % 4 = 0
  · have h1 : ¬t.val % 4 = 3 := by omega
    have hc0 : condReset (grid0.coords t) := (condReset_iff t).mpr h0
    have hc1 : ¬condLast (grid0.coords t) := fun h => h1 ((condLast_iff t).mp h)
    have hout : out2 m c t Y = stripAt (k0_off1 (grid0.coords t)) Y (tileAt m c t) := by unfold out2; rw [if_neg h1]
    rw [hout, scAt_reset m c t h0]
    have hΦ : (rdat m c).Φ t.castSucc ⊢ iprop(iprop((∃ d, owns (c : Thread nD τ) scM fullShare d) ∗ (∃ d, owns (c : Thread nD τ) scL fullShare d)) ∗ (∃ r, prngReg c r)) := by
      by_cases hz : t.val = 0
      · rw [Phi_castSucc m c t, PhiS_zero m c _ _ hz, PhiA_eq]
      · rw [Phi_castSucc m c t, PhiS_pos m c _ _ hz]
        iintro ⟨⟨HS0, HS1⟩, Hg⟩
        isplitl [HS0 HS1]
        · isplitl [HS0]
          · iexists _; iexact HS0
          · iexists _; iexact HS1
        iexact Hg
    iintro ⟨HP, Ho, H0, H1, H2⟩
    ihave HP' := hΦ $$ HP
    icases HP' with ⟨⟨HS0, HS1⟩, Hg⟩
    iapply ((runA c (grid0.coords t) (ms0 t) (hs0 t) (ms1 t) (hs1 t) (ms2 t) (hs2 t) scM (Memref.isWhole_whole _) scL (Memref.isWhole_whole _) hc0 hc1 (iblk m c 0 t) (iblk m c 1 t) Y).2.2.2 Set.univ _)
    isplitl [H0]; · iexact H0
    isplitl [H1]; · iexact H1
    isplitl [H2]; · iexact H2
    isplitl [HS0]; · iexact HS0
    isplitl [HS1]; · iexact HS1
    iintro ⟨H0, H1, H2, ⟨%e0, HS0⟩, ⟨%e1, HS1⟩⟩
    isplitl [HS0 HS1 Hg]
    · isplitl [HS0 HS1]
      · isplitl [HS0]
        · unfold owns; iexists _; isplitr
          swap; · iexact HS0
          ipureintro; exact runA_max c _ _ _ _ _ _ _ _ _ _ _ hc0 hc1 _ _ _ e0
        · unfold owns; iexists _; isplitr
          swap; · iexact HS1
          ipureintro; exact runA_den c _ _ _ _ _ _ _ _ _ _ _ hc0 hc1 _ _ _ e1
      iexact Hg
    isplitl [Ho]; · iexact Ho
    isplitl [H0]; · iexact H0
    isplitl [H1]; · iexact H1
    unfold owns; iexists _; isplitr
    swap; · iexact H2
    ipureintro; exact runA_strip c _ _ _ _ _ _ _ _ _ _ _ hc0 hc1 _ _ _
  · have hz : t.val ≠ 0 := fun e => h0 (by rw [e])
    have hc0 : ¬condReset (grid0.coords t) := fun h => h0 ((condReset_iff t).mp h)
    rw [Phi_castSucc m c t, PhiS_pos m c _ _ hz, scAt_carry m c t h0]
    by_cases h1 : t.val % 4 = 3
    · have hc1 : condLast (grid0.coords t) := (condLast_iff t).mpr h1
      have hout : out2 m c t Y = k0_pay1 (scAt m c t.val t.isLt).1 (scAt m c t.val t.isLt).2 (stripAt (k0_off1 (grid0.coords t)) Y (tileAt m c t)) := by
        unfold out2; rw [if_pos h1]
      rw [hout, scAt_carry m c t h0]
      iintro ⟨⟨⟨HS0, HS1⟩, Hg⟩, Ho, H0, H1, H2⟩
      iapply ((runC c (grid0.coords t) (ms0 t) (hs0 t) (ms1 t) (hs1 t) (ms2 t) (hs2 t) scM (Memref.isWhole_whole _) scL (Memref.isWhole_whole _) hc0 hc1 (iblk m c 0 t) (iblk m c 1 t) Y _ _).2.2.2 Set.univ _)
      isplitl [H0]; · iexact H0
      isplitl [H1]; · iexact H1
      isplitl [H2]; · iexact H2
      isplitl [HS0]; · iexact HS0
      isplitl [HS1]; · iexact HS1
      iintro ⟨H0, H1, H2, ⟨%e0, HS0⟩, ⟨%e1, HS1⟩⟩
      isplitl [HS0 HS1 Hg]
      · isplitl [HS0 HS1]
        · isplitl [HS0]
          · unfold owns; iexists _; isplitr
            swap; · iexact HS0
            ipureintro; exact runC_max c _ _ _ _ _ _ _ _ _ _ _ hc0 hc1 _ _ _ _ _ e0
          · unfold owns; iexists _; isplitr
            swap; · iexact HS1
            ipureintro; exact runC_den c _ _ _ _ _ _ _ _ _ _ _ hc0 hc1 _ _ _ _ _ e1
        iexact Hg
      isplitl [Ho]; · iexact Ho
      isplitl [H0]; · iexact H0
      isplitl [H1]; · iexact H1
      unfold owns; iexists _; isplitr
      swap; · iexact H2
      ipureintro; exact runC_out c _ _ _ _ _ _ _ _ _ _ _ hc0 hc1 _ _ _ _ _
    · have hc1 : ¬condLast (grid0.coords t) := fun h => h1 ((condLast_iff t).mp h)
      have hout : out2 m c t Y = stripAt (k0_off1 (grid0.coords t)) Y (tileAt m c t) := by unfold out2; rw [if_neg h1]
      rw [hout]
      iintro ⟨⟨⟨HS0, HS1⟩, Hg⟩, Ho, H0, H1, H2⟩
      iapply ((runB c (grid0.coords t) (ms0 t) (hs0 t) (ms1 t) (hs1 t) (ms2 t) (hs2 t) scM (Memref.isWhole_whole _) scL (Memref.isWhole_whole _) hc0 hc1 (iblk m c 0 t) (iblk m c 1 t) Y _ _).2.2.2 Set.univ _)
      isplitl [H0]; · iexact H0
      isplitl [H1]; · iexact H1
      isplitl [H2]; · iexact H2
      isplitl [HS0]; · iexact HS0
      isplitl [HS1]; · iexact HS1
      iintro ⟨H0, H1, H2, ⟨%e0, HS0⟩, ⟨%e1, HS1⟩⟩
      isplitl [HS0 HS1 Hg]
      · isplitl [HS0 HS1]
        · isplitl [HS0]
          · unfold owns; iexists _; isplitr
            swap; · iexact HS0
            ipureintro; exact runB_max c _ _ _ _ _ _ _ _ _ _ _ hc0 hc1 _ _ _ _ _ e0
          · unfold owns; iexists _; isplitr
            swap; · iexact HS1
            ipureintro; exact runB_den c _ _ _ _ _ _ _ _ _ _ _ hc0 hc1 _ _ _ _ _ e1
        iexact Hg
      isplitl [Ho]; · iexact Ho
      isplitl [H0]; · iexact H0
      isplitl [H1]; · iexact H1
      unfold owns; iexists _; isplitr
      swap; · iexact H2
      ipureintro; exact runB_strip c _ _ _ _ _ _ _ _ _ _ _ hc0 hc1 _ _ _ _ _

/-- The library's body obligation, at every point and for all contents the windows' buffers may hold there. -/
theorem body_obligation (c : Dev nD) : (rdat (F := F) m c).BodyObligation (defs₀ (F := F)) Variants.none () Set.univ := fun t Y hY => by
  rw [bigSep_W0, bigSep_W0]
  have e0 := finds0 m c t (Y 0) (hY 0)
  have e1 := finds1 m c t (Y 1) (hY 1)
  refine (show _ ⊢ bodyPre m c t (Y 2) from ?_).trans ((sound_body m c t (Y 2)).trans (wp_mono _ _ _ ?_))
  · unfold bodyPre; rw [e0, e1]
  · intro _
    unfold bodyPost
    iintro ⟨HP, Ho, H0, H1, H2⟩
    isplitl [HP]; · iexact HP
    isplitl [Ho]; · iexact Ho
    isplitl [H0]
    · iexists _; isplitr; · ipureintro; exact (after0 m c t _ _).mpr rfl
      rw [e0]; iexact H0
    isplitl [H1]
    · iexists _; isplitr; · ipureintro; exact (after1 m c t _ _).mpr rfl
      rw [e1]; iexact H1
    iexists _; isplitr; · ipureintro; exact (after2 m c t _ _).mpr rfl
    iexact H2

/-- What the launch hands the region is the invariant before the first point. -/
theorem hin (c : Dev nD) : Pipeline.ΦA spec0 c ⊢ (rdat m c).Φ 0 := by
  rw [show (rdat m c).Φ 0 = PhiS m c 0 (Nat.zero_le _) from rfl, PhiS_zero m c 0 _ rfl]
  try exact Idealize.SL.BI.Entails.refl _

/-- After the last point the invariant gives the resting one back: the scratch columns' values are forgotten. -/
theorem hout (c : Dev nD) : (rdat m c).Φ (Fin.last cfg0.N) ⊢ Pipeline.ΦA spec0 c := by
  rw [show (rdat m c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA_eq]
  iintro ⟨⟨HS0, HS1⟩, Hg⟩
  isplitl [HS0 HS1]
  · isplitl [HS0]
    · iexists _; iexact HS0
    · iexists _; iexact HS1
  iexact Hg

/-! ## The run -/

set_option backward.isDefEq.respectTransparency.types false in
/-- Every weakly fair execution of @main terminates without a fault; at the end every array of the pipeline holds
    contents it may hold after all the write-backs (an input its entry contents) and every other unscoped buffer
    what it held at the region's entry. -/
theorem run_main : θ_run defs (onTc (τ := τ) (main (F := F))) (s₀ m ρ) (Pipeline.RDat.FramePost (cfgs 0) (rdat m) (V m)) :=
  Pipeline.RDat.θ_run_frame_track cfgs (0 : Fin 1) launch0 defs₀ Variants.none (rdat m) m ρ main
    (hbody := body_obligation m) (hshare := fun c => (rdat m c).share_full fun _ => rfl)
    (howed := fun _ _ => rfl) (V := V m) (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m ρ)

end Cert.Kernel.Body

end
-- ==== Proof.KI.Conds.lean ====
/-
  The fused row-softmax kernel's control, decided over its 32 x 4 grid: the accumulators are reset at the first
  column tile of a row tile (point = 0 mod 4), the strip of raw scores is normalised in place at the last one
  (point = 3 mod 4), and the column strip a point stores its scores into starts at column 2048 * (point mod 4).
  Also the staging and scratch memrefs the body is called with, and the region's resting invariant with the two
  scratch columns (running maximum, running denominator) spelled out.
-/
import proofs.«122358_j90795608637906_2_alg».proof.Proof.Gen.KernelIdeal.Launch
import proofs.«122358_j90795608637906_2_alg».proof.Proof.Gen.KernelIdeal.Skeleton
import proofs.«122358_j90795608637906_2_alg».proof.Proof.Gen.KernelIdeal.Points
import proofs.«122358_j90795608637906_2_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

/-- The body resets its accumulators: the column-tile coordinate is 0. -/
abbrev condReset (i : grid0.Coords) : Prop :=
  (Scalar.cmpi .ne (Scalar.extui (Scalar.cmpi .eq (BitVec.ofNat 32 (i 1).val) 0#32)) 0#32) = 1#1
/-- The body normalises the strip: the column-tile coordinate is 3, the last. -/
abbrev condLast (i : grid0.Coords) : Prop :=
  (Scalar.cmpi .ne (Scalar.extui (Scalar.cmpi .eq (BitVec.ofNat 32 (i 1).val) 3#32)) 0#32) = 1#1

theorem condReset_iff : ∀ t : Fin cfg0.N, condReset (grid0.coords t) ↔ t.val % 4 = 0 :=
  (by decide +kernel : ∀ t : Fin grid0.N, condReset (grid0.coords t) ↔ t.val % 4 = 0)
theorem condLast_iff : ∀ t : Fin cfg0.N, condLast (grid0.coords t) ↔ t.val % 4 = 3 :=
  (by decide +kernel : ∀ t : Fin grid0.N, condLast (grid0.coords t) ↔ t.val % 4 = 3)

/-- The strip a point stores into starts at row 0, column 2048 * (point mod 4). -/
theorem off_eq : ∀ t : Fin cfg0.N, k0_off1 (grid0.coords t) = ![0, 2048 * (t.val % 4)] :=
  (by decide +kernel : ∀ t : Fin grid0.N, k0_off1 (grid0.coords t) = ![0, 2048 * (t.val % 4)])

/-- Each window's current staging memref at a point, as the pipeline passes it, and that it is a whole buffer. -/
abbrev ms0 (t : Fin cfg0.N) : Memref sig .tc .vmem S256x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x8192 .f32 := win0_2.stage (cfg0.slots t 2)
abbrev hs2 (t : Fin cfg0.N) : (ms2 t).IsWhole := hstage0_2 ((cfg0.slots t 2).cast nbuf0_2)
/-- The two scratch columns: the running maximum and the running denominator. -/
abbrev scM : Memref sig .tc .vmem S256x1 .f32 := Memref.whole cc0_scratch0
abbrev scL : Memref sig .tc .vmem S256x1 .f32 := Memref.whole cc0_scratch1

/-- The region's resting invariant: both scratch columns at some contents, the generator register at some state. -/
theorem PhiA_eq (c : Dev nD) :
    (Pipeline.ΦA spec0 c : sProp 𝕄)
      = iprop(iprop((∃ d, owns (c : Thread nD τ) scM fullShare d) ∗ (∃ d, owns (c : Thread nD τ) scL fullShare d)) ∗ (∃ r, prngReg c r)) := by
  unfold Pipeline.ΦA; rw [scopedRest0_eq]; simp only [scM, scL, owns_whole]; try rfl

end Cert.KernelIdeal.Body

end
-- ==== Proof.KI.RunA.lean ====
/-
  The body run symbolically at the first column tile of a row tile (the accumulators are reset first, so the scratch columns may hold anything): from the two input tiles, the output strip buffer at any contents and the
  scratch columns, it ends with the inputs as they were and each written buffer at its old contents overwritten by
  a list of stored pieces (newest first), which the run finds.
-/
import proofs.«122358_j90795608637906_2_alg».proof.Proof.KI.Conds

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the output strip buffer (over the contents `y2` it was handed) and in the
    two scratch columns, with the body's triple ending at exactly those. -/
noncomputable def runA (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S256x8192 .f32) (harg4 : arg4.IsWhole) (arg5 : Memref sig .tc .vmem S256x1 .f32) (harg5 : arg5.IsWhole) (arg6 : Memref sig .tc .vmem S256x1 .f32) (harg6 : arg6.IsWhole) (hc0 : condReset i) (hc1 : ¬condLast i)
    (x0 : Vec F S256x1024 .bf16) (x1 : Vec F S2048x1024 .bf16) (y2 : Vec F S256x8192 .f32) :
    Σ' (L2 : List (View.Piece (Elt F) S256x8192 .f32)) (LS0 : List (View.Piece (Elt F) S256x1 .f32)), { LS1 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare y2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1
                ∗ (arg4.view.loc (c : Thread nD τ) ↦[arg4.view.set]{fullShare} arg4.view.writes (Elt F) (harg4.unread y2) L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__fused_kernel i arg2 harg2 arg3 harg3 arg4 harg4 arg5 harg5 arg6 harg6) K } := by
  refine ⟨?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    isplitl [HS0]; · iexists _; iexact HS0
    iexists _; iexact HS1

end Cert.KernelIdeal.Body

end
-- ==== Proof.KI.RunB.lean ====
/-
  The body run symbolically at a middle column tile (no reset, no normalisation): from the two input tiles, the output strip buffer at any contents and the
  scratch columns, it ends with the inputs as they were and each written buffer at its old contents overwritten by
  a list of stored pieces (newest first), which the run finds.
-/
import proofs.«122358_j90795608637906_2_alg».proof.Proof.KI.RunA

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the output strip buffer (over the contents `y2` it was handed) and in the
    two scratch columns, with the body's triple ending at exactly those. -/
noncomputable def runB (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S256x8192 .f32) (harg4 : arg4.IsWhole) (arg5 : Memref sig .tc .vmem S256x1 .f32) (harg5 : arg5.IsWhole) (arg6 : Memref sig .tc .vmem S256x1 .f32) (harg6 : arg6.IsWhole) (hc0 : ¬condReset i) (hc1 : ¬condLast i)
    (x0 : Vec F S256x1024 .bf16) (x1 : Vec F S2048x1024 .bf16) (y2 : Vec F S256x8192 .f32) (xs0 : Vec F S256x1 .f32) (xs1 : Vec F S256x1 .f32) :
    Σ' (L2 : List (View.Piece (Elt F) S256x8192 .f32)) (LS0 : List (View.Piece (Elt F) S256x1 .f32)), { LS1 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare y2 ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (arg4.view.loc (c : Thread nD τ) ↦[arg4.view.set]{fullShare} arg4.view.writes (Elt F) (harg4.unread y2) L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__fused_kernel i arg2 harg2 arg3 harg3 arg4 harg4 arg5 harg5 arg6 harg6) K } := by
  refine ⟨?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    isplitl [HS0]; · iexists _; iexact HS0
    iexists _; iexact HS1

end Cert.KernelIdeal.Body

end
-- ==== Proof.KI.RunC.lean ====
/-
  The body run symbolically at the last column tile (no reset; the whole strip is normalised in place at the end): from the two input tiles, the output strip buffer at any contents and the
  scratch columns, it ends with the inputs as they were and each written buffer at its old contents overwritten by
  a list of stored pieces (newest first), which the run finds.
-/
import proofs.«122358_j90795608637906_2_alg».proof.Proof.KI.RunB

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the output strip buffer (over the contents `y2` it was handed) and in the
    two scratch columns, with the body's triple ending at exactly those. -/
noncomputable def runC (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S256x8192 .f32) (harg4 : arg4.IsWhole) (arg5 : Memref sig .tc .vmem S256x1 .f32) (harg5 : arg5.IsWhole) (arg6 : Memref sig .tc .vmem S256x1 .f32) (harg6 : arg6.IsWhole) (hc0 : ¬condReset i) (hc1 : condLast i)
    (x0 : Vec F S256x1024 .bf16) (x1 : Vec F S2048x1024 .bf16) (y2 : Vec F S256x8192 .f32) (xs0 : Vec F S256x1 .f32) (xs1 : Vec F S256x1 .f32) :
    Σ' (L2 : List (View.Piece (Elt F) S256x8192 .f32)) (LS0 : List (View.Piece (Elt F) S256x1 .f32)), { LS1 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare y2 ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (arg4.view.loc (c : Thread nD τ) ↦[arg4.view.set]{fullShare} arg4.view.writes (Elt F) (harg4.unread y2) L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__fused_kernel i arg2 harg2 arg3 harg3 arg4 harg4 arg5 harg5 arg6 harg6) K } := by
  refine ⟨?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    isplitl [HS0]; · iexists _; iexact HS0
    iexists _; iexact HS1

end Cert.KernelIdeal.Body

end
-- ==== Proof.KI.Out.lean ====
/-
  What the body's stores leave, as explicit functions of what it was handed.

  The output strip buffer: a point overwrites the column strip that starts at the point's offset by its tile of raw
  scores and leaves the other columns as they were (`stripAt`); at a row tile's last point it then replaces the whole
  buffer by e^(strip - (m + log l)), m and l the scratch columns it has just updated. The two scratch columns: the new
  running maximum and the new running denominator, as the printed payload terms over the tiles and the old columns.
  Each list of pieces a run found is identified here, and read back through the buffer.
-/
import proofs.«122358_j90795608637906_2_alg».proof.Proof.KI.RunC
import Idealize.ShloMosaic.Lib.WritesUnit
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

/-- Contents `y` with the 256 x 2048 strip at offsets `off` overwritten by `s`. -/
def stripAt (off : Fin 2 → ℕ) (y : Vec F S256x8192 .f32) (s : Vec F S256x2048 .f32) : Vec F S256x8192 .f32 :=
  fun j => if h : ∀ a, off a ≤ (j a).val ∧ (j a).val < off a + S256x2048.size a then
      s (Rect.unitLocal (s := S256x8192) (off := off) (size := S256x2048.size) j h)
    else y j

theorem zero2 : (![0, 0] : Fin 2 → ℕ) = fun _ => 0 :=
  funext fun a => by match a with | ⟨0, _⟩ => rfl | ⟨1, _⟩ => rfl

/-- One store of a strip into a whole buffer at contents `y`, read back. -/
theorem read_strip (M : Memref sig .tc .vmem S256x8192 .f32) (hM : M.IsWhole) (off : Fin 2 → ℕ)
    (inb : ∀ a, off a + S256x2048.size a ≤ S256x8192.size a) (y : Vec F S256x8192 .f32) (s : Vec F S256x2048 .f32) :
    M.view.read (Elt F) (M.view.writes (Elt F) (hM.unread y) [⟨Rect.unit off S256x2048.size inb, s⟩]) = stripAt off y s := by
  funext j
  rw [View.read_writes_cons_unit M.view (hM.unread y) inb s [] j rfl]
  unfold stripAt
  split
  · rfl
  · rw [View.writes_nil, hM.read_unread]

/-- A list of stores whose newest fills the whole buffer reads back as that store's payload. -/
theorem read_whole_head {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## A middle point -/

section B
variable (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S256x8192 .f32) (harg4 : arg4.IsWhole) (arg5 : Memref sig .tc .vmem S256x1 .f32) (harg5 : arg5.IsWhole) (arg6 : Memref sig .tc .vmem S256x1 .f32) (harg6 : arg6.IsWhole) (hc0 : ¬condReset i) (hc1 : ¬condLast i)
  (x0 : Vec F S256x1024 .bf16) (x1 : Vec F S2048x1024 .bf16) (y2 : Vec F S256x8192 .f32) (xs0 xs1 : Vec F S256x1 .f32)

theorem runB_strip :
    arg4.view.read (Elt F) (arg4.view.writes (Elt F) (harg4.unread y2) (runB c i arg2 harg2 arg3 harg3 arg4 harg4 arg5 harg5 arg6 harg6 hc0 hc1 x0 x1 y2 xs0 xs1).1)
      = stripAt (k0_off1 i) y2 (k0_pay4 x0 x1) := by
  rw [← read_strip arg4 harg4 (k0_off1 i) (k0_off1_inb i) y2 (k0_pay4 x0 x1)]
  unfold runB; dsimp only; sl_unfold_words
  simp only [View.readAt_eq_ld, harg2.read_unread, harg3.read_unread, View.ld_unit_zero (S := S256x1024) zero2, View.ld_unit_zero (S := S2048x1024) zero2]

theorem runB_max (f : arg5.view.ty.Contents (Elt F)) :
    arg5.view.read (Elt F) (arg5.view.writes (Elt F) f (runB c i arg2 harg2 arg3 harg3 arg4 harg4 arg5 harg5 arg6 harg6 hc0 hc1 x0 x1 y2 xs0 xs1).2.1)
      = k0_pay7 x0 x1 xs0 := by
  unfold runB; dsimp only; sl_unfold_words
  rw [read_whole_head _ _ zero2]
  simp only [View.readAt_eq_ld, harg2.read_unread, harg3.read_unread, harg5.read_unread, View.ld_unit_zero (S := S256x1024) zero2, View.ld_unit_zero (S := S2048x1024) zero2, View.ld_unit_zero (S := S256x1) zero2]

theorem runB_den (f : arg6.view.ty.Contents (Elt F)) :
    arg6.view.read (Elt F) (arg6.view.writes (Elt F) f (runB c i arg2 harg2 arg3 harg3 arg4 harg4 arg5 harg5 arg6 harg6 hc0 hc1 x0 x1 y2 xs0 xs1).2.2.1)
      = k0_pay6 x0 x1 xs0 xs0 xs1 := by
  unfold runB; dsimp only; sl_unfold_words
  rw [read_whole_head _ _ zero2]
  simp only [View.readAt_eq_ld, harg2.read_unread, harg3.read_unread, harg5.read_unread, harg6.read_unread, View.ld_unit_zero (S := S256x1024) zero2, View.ld_unit_zero (S := S2048x1024) zero2, View.ld_unit_zero (S := S256x1) zero2]

end B

/-! ## A row tile's first point -/

section A
variable (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S256x8192 .f32) (harg4 : arg4.IsWhole) (arg5 : Memref sig .tc .vmem S256x1 .f32) (harg5 : arg5.IsWhole) (arg6 : Memref sig .tc .vmem S256x1 .f32) (harg6 : arg6.IsWhole) (hc0 : condReset i) (hc1 : ¬condLast i)
  (x0 : Vec F S256x1024 .bf16) (x1 : Vec F S2048x1024 .bf16) (y2 : Vec F S256x8192 .f32)

theorem runA_strip :
    arg4.view.read (Elt F) (arg4.view.writes (Elt F) (harg4.unread y2) (runA c i arg2 harg2 arg3 harg3 arg4 harg4 arg5 harg5 arg6 harg6 hc0 hc1 x0 x1 y2).1)
      = stripAt (k0_off1 i) y2 (k0_pay4 x0 x1) := by
  rw [← read_strip arg4 harg4 (k0_off1 i) (k0_off1_inb i) y2 (k0_pay4 x0 x1)]
  unfold runA; dsimp only; sl_unfold_words
  simp only [View.readAt_eq_ld, harg2.read_unread, harg3.read_unread, View.ld_unit_zero (S := S256x1024) zero2, View.ld_unit_zero (S := S2048x1024) zero2]

theorem runA_max (f : arg5.view.ty.Contents (Elt F)) :
    arg5.view.read (Elt F) (arg5.view.writes (Elt F) f (runA c i arg2 harg2 arg3 harg3 arg4 harg4 arg5 harg5 arg6 harg6 hc0 hc1 x0 x1 y2).2.1)
      = k0_pay7 x0 x1 k0_pay2 := by
  unfold runA; dsimp only; sl_unfold_words
  rw [read_whole_head _ _ zero2]
  simp only [View.readAt_eq_ld, harg2.read_unread, harg3.read_unread, View.ld_unit_zero (S := S256x1024) zero2, View.ld_unit_zero (S := S2048x1024) zero2, View.readCov_unit_zero (S := S256x1) _ zero2]

theorem runA_den (f : arg6.view.ty.Contents (Elt F)) :
    arg6.view.read (Elt F) (arg6.view.writes (Elt F) f (runA c i arg2 harg2 arg3 harg3 arg4 harg4 arg5 harg5 arg6 harg6 hc0 hc1 x0 x1 y2).2.2.1)
      = k0_pay6 x0 x1 k0_pay2 k0_pay2 k0_pay3 := by
  unfold runA; dsimp only; sl_unfold_words
  rw [read_whole_head _ _ zero2]
  simp only [View.readAt_eq_ld, harg2.read_unread, harg3.read_unread, View.ld_unit_zero (S := S256x1024) zero2, View.ld_unit_zero (S := S2048x1024) zero2, View.readCov_unit_zero (S := S256x1) _ zero2]

end A

/-! ## A row tile's last point -/

section C
variable (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S256x8192 .f32) (harg4 : arg4.IsWhole) (arg5 : Memref sig .tc .vmem S256x1 .f32) (harg5 : arg5.IsWhole) (arg6 : Memref sig .tc .vmem S256x1 .f32) (harg6 : arg6.IsWhole) (hc0 : ¬condReset i) (hc1 : condLast i)
  (x0 : Vec F S256x1024 .bf16) (x1 : Vec F S2048x1024 .bf16) (y2 : Vec F S256x8192 .f32) (xs0 xs1 : Vec F S256x1 .f32)

theorem runC_out :
    arg4.view.read (Elt F) (arg4.view.writes (Elt F) (harg4.unread y2) (runC c i arg2 harg2 arg3 harg3 arg4 harg4 arg5 harg5 arg6 harg6 hc0 hc1 x0 x1 y2 xs0 xs1).1)
      = k0_pay1 (k0_pay7 x0 x1 xs0) (k0_pay6 x0 x1 xs0 xs0 xs1) (stripAt (k0_off1 i) y2 (k0_pay4 x0 x1)) := by
  rw [← read_strip arg4 harg4 (k0_off1 i) (k0_off1_inb i) y2 (k0_pay4 x0 x1)]
  unfold runC; dsimp only; sl_unfold_words
  rw [read_whole_head _ _ zero2]
  simp only [View.readAt_eq_ld, harg2.read_unread, harg3.read_unread, harg5.read_unread, harg6.read_unread, View.ld_unit_zero (S := S256x1024) zero2, View.ld_unit_zero (S := S2048x1024) zero2, View.ld_unit_zero (S := S256x1) zero2, View.ld_unit_zero (S := S256x8192) zero2, View.readCov_unit_zero (S := S256x1) _ zero2]

theorem runC_max (f : arg5.view.ty.Contents (Elt F)) :
    arg5.view.read (Elt F) (arg5.view.writes (Elt F) f (runC c i arg2 harg2 arg3 harg3 arg4 harg4 arg5 harg5 arg6 harg6 hc0 hc1 x0 x1 y2 xs0 xs1).2.1)
      = k0_pay7 x0 x1 xs0 := by
  unfold runC; dsimp only; sl_unfold_words
  rw [read_whole_head _ _ zero2]
  simp only [View.readAt_eq_ld, harg2.read_unread, harg3.read_unread, harg5.read_unread, View.ld_unit_zero (S := S256x1024) zero2, View.ld_unit_zero (S := S2048x1024) zero2, View.ld_unit_zero (S := S256x1) zero2]

theorem runC_den (f : arg6.view.ty.Contents (Elt F)) :
    arg6.view.read (Elt F) (arg6.view.writes (Elt F) f (runC c i arg2 harg2 arg3 harg3 arg4 harg4 arg5 harg5 arg6 harg6 hc0 hc1 x0 x1 y2 xs0 xs1).2.2.1)
      = k0_pay6 x0 x1 xs0 xs0 xs1 := by
  unfold runC; dsimp only; sl_unfold_words
  rw [read_whole_head _ _ zero2]
  simp only [View.readAt_eq_ld, harg2.read_unread, harg3.read_unread, harg5.read_unread, harg6.read_unread, View.ld_unit_zero (S := S256x1024) zero2, View.ld_unit_zero (S := S2048x1024) zero2, View.ld_unit_zero (S := S256x1) zero2]

end C

end Cert.KernelIdeal.Body

end
-- ==== Proof.KI.Data.lean ====
/-
  The proof data of the fused row-softmax pipeline, and its body obligation.

  Between points the region keeps: the two scratch columns at the running maximum and running denominator of the
  row tile's column tiles seen so far (`scAt`, by recursion on the point; anything before the first point), and the
  generator register. The two input windows' buffers are left as found. The output strip buffer is CONSTRAINED, not
  named: whatever it held, the point overwrites its own column strip by its tile of raw scores, and the row tile's
  last point then normalises the whole strip (`out2`) — before the first store of a row tile the buffer holds
  nothing the proof knows.
-/
import proofs.«122358_j90795608637906_2_alg».proof.Proof.KI.Out
import Idealize.ShloMosaic.Lib.Pipeline.Frame

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch columns hold after each point -/

/-- One point's update of (running maximum, running denominator) from the two input tiles. -/
def scStep (u : Vec F S256x1024 .bf16) (w : Vec F S2048x1024 .bf16) (p : Vec F S256x1 .f32 × Vec F S256x1 .f32) :
    Vec F S256x1 .f32 × Vec F S256x1 .f32 :=
  (k0_pay7 u w p.1, k0_pay6 u w p.1 p.1 p.2)

/-- The scratch columns after point `n`: a row tile's first point starts from (-inf, 0). -/
def scAt (c : Dev nD) : (n : ℕ) → n < cfg0.N → Vec F S256x1 .f32 × Vec F S256x1 .f32
  | 0, hn => scStep (iblk m c 0 ⟨0, hn⟩) (iblk m c 1 ⟨0, hn⟩) (k0_pay2, k0_pay3)
  | n + 1, hn => scStep (iblk m c 0 ⟨n + 1, hn⟩) (iblk m c 1 ⟨n + 1, hn⟩)
      (if (n + 1) % 4 = 0 then (k0_pay2, k0_pay3) else scAt c n (Nat.lt_of_succ_lt hn))

theorem scAt_reset (c : Dev nD) (t : Fin cfg0.N) (h : t.val % 4 = 0) :
    scAt m c t.val t.isLt = scStep (iblk m c 0 t) (iblk m c 1 t) (k0_pay2, k0_pay3) := by
  obtain ⟨n, hn⟩ := t
  cases n with
  | zero => rfl
  | succ n => exact congrArg (scStep _ _) (if_pos h)

theorem scAt_carry (c : Dev nD) (t : Fin cfg0.N) (h : ¬t.val % 4 = 0) :
    scAt m c t.val t.isLt = scStep (iblk m c 0 t) (iblk m c 1 t)
      (scAt m c (t.val - 1) (Nat.lt_of_le_of_lt (Nat.sub_le _ _) t.isLt)) := by
  obtain ⟨n, hn⟩ := t
  cases n with
  | zero => exact absurd (Nat.zero_mod _) h
  | succ n => exact congrArg (scStep _ _) (if_neg h)

/-- The point's tile of raw scores. -/
def tileAt (c : Dev nD) (t : Fin cfg0.N) : Vec F S256x2048 .f32 := k0_pay4 (iblk m c 0 t) (iblk m c 1 t)

/-- What the point leaves in the output strip buffer, given what it found there. -/
def out2 (c : Dev nD) (t : Fin cfg0.N) (Y : Vec F S256x8192 .f32) : Vec F S256x8192 .f32 :=
  if t.val % 4 = 3 then
    k0_pay1 (scAt m c t.val t.isLt).1 (scAt m c t.val t.isLt).2 (stripAt (k0_off1 (grid0.coords t)) Y (tileAt m c t))
  else stripAt (k0_off1 (grid0.coords t)) Y (tileAt m c t)

/-- The region invariant before position `n`. -/
def PhiS (c : Dev nD) : (n : ℕ) → n ≤ cfg0.N → sProp 𝕄
  | 0, _ => Pipeline.ΦA spec0 c
  | n + 1, hn => iprop(iprop(owns (c : Thread nD τ) scM fullShare (scAt m c n hn).1 ∗ owns (c : Thread nD τ) scL fullShare (scAt m c n hn).2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (scAt m c n hn).1 ∗ owns (c : Thread nD τ) scL fullShare (scAt m c n hn).2) ∗ (∃ r, prngReg c r)) := rfl

theorem PhiS_pos (c : Dev nD) (n : ℕ) (h : n ≤ cfg0.N) (hz : n ≠ 0) :
    PhiS m c n h = iprop(iprop(owns (c : Thread nD τ) scM fullShare (scAt m c (n - 1) (by omega)).1 ∗ owns (c : Thread nD τ) scL fullShare (scAt m c (n - 1) (by omega)).2) ∗ (∃ r, prngReg c r)) := by
  cases n with
  | zero => exact absurd rfl hz
  | succ n => rfl

/-! ## The proof data -/

/-- The relational proof data on core `c`. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = out2 m c t Y
  Φ t := PhiS m c t.val (Nat.le_of_lt_succ t.isLt)
  q _ := fullShare
  owed _ := 0

theorem A_eq (c : Dev nD) (w : Fin cfg0.W) : (rdat m c).A w = V m c (Pipeline.arrRef spec0 w) := by
  dsimp only [rdat]

theorem Phi_castSucc (c : Dev nD) (t : Fin cfg0.N) :
    (rdat m c).Φ t.castSucc = PhiS m c t.val (Nat.le_of_lt t.isLt) := by
  dsimp only [rdat]; simp only [Fin.coe_castSucc]

theorem after0 (c : Dev nD) (t : Fin cfg0.N) (Y X) : (rdat m c).after 0 t Y X ↔ X = Y := by dsimp only [rdat]; exact Iff.rfl
theorem after1 (c : Dev nD) (t : Fin cfg0.N) (Y X) : (rdat m c).after 1 t Y X ↔ X = Y := by dsimp only [rdat]; exact Iff.rfl
theorem after2 (c : Dev nD) (t : Fin cfg0.N) (Y X) : (rdat m c).after 2 t Y X ↔ X = out2 m c t Y := by dsimp only [rdat]; exact Iff.rfl

/-- An input window's buffer holds the window's block at the point, fetched there or not. -/
theorem finds0 (c : Dev nD) (t : Fin cfg0.N) (Y) (h : (rdat m c).Finds 0 t Y) : Y = iblk m c 0 t := by
  obtain ⟨d, hd⟩ := (rdat m c).finds_in_eq_fetched 0 rfl (fun _ _ _ => rfl) (fun t Y X h => (after0 m c t Y X).mp h) t Y h
  rw [hd]; unfold RDat.fetched RDat.blockOf iblk; rw [A_eq]; try rfl
theorem finds1 (c : Dev nD) (t : Fin cfg0.N) (Y) (h : (rdat m c).Finds 1 t Y) : Y = iblk m c 1 t := by
  obtain ⟨d, hd⟩ := (rdat m c).finds_in_eq_fetched 1 rfl (fun _ _ _ => rfl) (fun t Y X h => (after1 m c t Y X).mp h) t Y h
  rw [hd]; unfold RDat.fetched RDat.blockOf iblk; rw [A_eq]; try rfl

/-! ## The body obligation -/

/-- What the body is called with at point `t`, the two input tiles at their blocks, the output strip buffer at `Y`, -/
def bodyPre (c : Dev nD) (t : Fin cfg0.N) (Y : Vec F S256x8192 .f32) : sProp 𝕄 :=
  iprop((rdat m c).Φ t.castSucc ∗ (rdat m c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare Y)

/-- and what it returns. -/
def bodyPost (c : Dev nD) (t : Fin cfg0.N) (Y : Vec F S256x8192 .f32) : sProp 𝕄 :=
  iprop((rdat m c).Φ t.succ ∗ (rdat m c).owesAt () t.succ
    ∗ owns (c : Thread nD τ) (ms0 t) fullShare (iblk m c 0 t)
    ∗ owns (c : Thread nD τ) (ms1 t) fullShare (iblk m c 1 t)
    ∗ owns (c : Thread nD τ) (ms2 t) fullShare (out2 m c t Y))

set_option maxHeartbeats 4800000 in
/-- The body at any point: which of the three control cases the point is in is decided by the point modulo 4; the
    invariant hands the run the scratch columns (at anything at a row tile's first point) and takes them back at
    this point's values; the strip buffer comes back overwritten as `out2` says. -/
theorem sound_body (c : Dev nD) (t : Fin cfg0.N) (Y : Vec F S256x8192 .f32) :
    bodyPre m c t Y ⊢ wp frame (wpE (defs₀ (F := F)) Variants.none c none) Set.univ (bodyAt0 t) (fun _ => bodyPost m c t Y) := by
  unfold bodyPre bodyPost bodyAt0
  rw [show (rdat m c).owesAt () t.succ = (rdat m c).owesAt () t.castSucc from rfl]
  rw [show (rdat m c).Φ t.succ = PhiS m c (t.val + 1) t.isLt from rfl, PhiS_succ]
  have hN : t.val < 128 := lt_of_lt_of_eq t.isLt (show cfg0.N = 128 from N_0)
  by_cases h0 : t.val % 4 = 0
  · have h1 : ¬t.val % 4 = 3 := by omega
    have hc0 : condReset (grid0.coords t) := (condReset_iff t).mpr h0
    have hc1 : ¬condLast (grid0.coords t) := fun h => h1 ((condLast_iff t).mp h)
    have hout : out2 m c t Y = stripAt (k0_off1 (grid0.coords t)) Y (tileAt m c t) := by unfold out2; rw [if_neg h1]
    rw [hout, scAt_reset m c t h0]
    have hΦ : (rdat m c).Φ t.castSucc ⊢ iprop(iprop((∃ d, owns (c : Thread nD τ) scM fullShare d) ∗ (∃ d, owns (c : Thread nD τ) scL fullShare d)) ∗ (∃ r, prngReg c r)) := by
      by_cases hz : t.val = 0
      · rw [Phi_castSucc m c t, PhiS_zero m c _ _ hz, PhiA_eq]
      · rw [Phi_castSucc m c t, PhiS_pos m c _ _ hz]
        iintro ⟨⟨HS0, HS1⟩, Hg⟩
        isplitl [HS0 HS1]
        · isplitl [HS0]
          · iexists _; iexact HS0
          · iexists _; iexact HS1
        iexact Hg
    iintro ⟨HP, Ho, H0, H1, H2⟩
    ihave HP' := hΦ $$ HP
    icases HP' with ⟨⟨HS0, HS1⟩, Hg⟩
    iapply ((runA c (grid0.coords t) (ms0 t) (hs0 t) (ms1 t) (hs1 t) (ms2 t) (hs2 t) scM (Memref.isWhole_whole _) scL (Memref.isWhole_whole _) hc0 hc1 (iblk m c 0 t) (iblk m c 1 t) Y).2.2.2 Set.univ _)
    isplitl [H0]; · iexact H0
    isplitl [H1]; · iexact H1
    isplitl [H2]; · iexact H2
    isplitl [HS0]; · iexact HS0
    isplitl [HS1]; · iexact HS1
    iintro ⟨H0, H1, H2, ⟨%e0, HS0⟩, ⟨%e1, HS1⟩⟩
    isplitl [HS0 HS1 Hg]
    · isplitl [HS0 HS1]
      · isplitl [HS0]
        · unfold owns; iexists _; isplitr
          swap; · iexact HS0
          ipureintro; exact runA_max c _ _ _ _ _ _ _ _ _ _ _ hc0 hc1 _ _ _ e0
        · unfold owns; iexists _; isplitr
          swap; · iexact HS1
          ipureintro; exact runA_den c _ _ _ _ _ _ _ _ _ _ _ hc0 hc1 _ _ _ e1
      iexact Hg
    isplitl [Ho]; · iexact Ho
    isplitl [H0]; · iexact H0
    isplitl [H1]; · iexact H1
    unfold owns; iexists _; isplitr
    swap; · iexact H2
    ipureintro; exact runA_strip c _ _ _ _ _ _ _ _ _ _ _ hc0 hc1 _ _ _
  · have hz : t.val ≠ 0 := fun e => h0 (by rw [e])
    have hc0 : ¬condReset (grid0.coords t) := fun h => h0 ((condReset_iff t).mp h)
    rw [Phi_castSucc m c t, PhiS_pos m c _ _ hz, scAt_carry m c t h0]
    by_cases h1 : t.val % 4 = 3
    · have hc1 : condLast (grid0.coords t) := (condLast_iff t).mpr h1
      have hout : out2 m c t Y = k0_pay1 (scAt m c t.val t.isLt).1 (scAt m c t.val t.isLt).2 (stripAt (k0_off1 (grid0.coords t)) Y (tileAt m c t)) := by
        unfold out2; rw [if_pos h1]
      rw [hout, scAt_carry m c t h0]
      iintro ⟨⟨⟨HS0, HS1⟩, Hg⟩, Ho, H0, H1, H2⟩
      iapply ((runC c (grid0.coords t) (ms0 t) (hs0 t) (ms1 t) (hs1 t) (ms2 t) (hs2 t) scM (Memref.isWhole_whole _) scL (Memref.isWhole_whole _) hc0 hc1 (iblk m c 0 t) (iblk m c 1 t) Y _ _).2.2.2 Set.univ _)
      isplitl [H0]; · iexact H0
      isplitl [H1]; · iexact H1
      isplitl [H2]; · iexact H2
      isplitl [HS0]; · iexact HS0
      isplitl [HS1]; · iexact HS1
      iintro ⟨H0, H1, H2, ⟨%e0, HS0⟩, ⟨%e1, HS1⟩⟩
      isplitl [HS0 HS1 Hg]
      · isplitl [HS0 HS1]
        · isplitl [HS0]
          · unfold owns; iexists _; isplitr
            swap; · iexact HS0
            ipureintro; exact runC_max c _ _ _ _ _ _ _ _ _ _ _ hc0 hc1 _ _ _ _ _ e0
          · unfold owns; iexists _; isplitr
            swap; · iexact HS1
            ipureintro; exact runC_den c _ _ _ _ _ _ _ _ _ _ _ hc0 hc1 _ _ _ _ _ e1
        iexact Hg
      isplitl [Ho]; · iexact Ho
      isplitl [H0]; · iexact H0
      isplitl [H1]; · iexact H1
      unfold owns; iexists _; isplitr
      swap; · iexact H2
      ipureintro; exact runC_out c _ _ _ _ _ _ _ _ _ _ _ hc0 hc1 _ _ _ _ _
    · have hc1 : ¬condLast (grid0.coords t) := fun h => h1 ((condLast_iff t).mp h)
      have hout : out2 m c t Y = stripAt (k0_off1 (grid0.coords t)) Y (tileAt m c t) := by unfold out2; rw [if_neg h1]
      rw [hout]
      iintro ⟨⟨⟨HS0, HS1⟩, Hg⟩, Ho, H0, H1, H2⟩
      iapply ((runB c (grid0.coords t) (ms0 t) (hs0 t) (ms1 t) (hs1 t) (ms2 t) (hs2 t) scM (Memref.isWhole_whole _) scL (Memref.isWhole_whole _) hc0 hc1 (iblk m c 0 t) (iblk m c 1 t) Y _ _).2.2.2 Set.univ _)
      isplitl [H0]; · iexact H0
      isplitl [H1]; · iexact H1
      isplitl [H2]; · iexact H2
      isplitl [HS0]; · iexact HS0
      isplitl [HS1]; · iexact HS1
      iintro ⟨H0, H1, H2, ⟨%e0, HS0⟩, ⟨%e1, HS1⟩⟩
      isplitl [HS0 HS1 Hg]
      · isplitl [HS0 HS1]
        · isplitl [HS0]
          · unfold owns; iexists _; isplitr
            swap; · iexact HS0
            ipureintro; exact runB_max c _ _ _ _ _ _ _ _ _ _ _ hc0 hc1 _ _ _ _ _ e0
          · unfold owns; iexists _; isplitr
            swap; · iexact HS1
            ipureintro; exact runB_den c _ _ _ _ _ _ _ _ _ _ _ hc0 hc1 _ _ _ _ _ e1
        iexact Hg
      isplitl [Ho]; · iexact Ho
      isplitl [H0]; · iexact H0
      isplitl [H1]; · iexact H1
      unfold owns; iexists _; isplitr
      swap; · iexact H2
      ipureintro; exact runB_strip c _ _ _ _ _ _ _ _ _ _ _ hc0 hc1 _ _ _ _ _

/-- The library's body obligation, at every point and for all contents the windows' buffers may hold there. -/
theorem body_obligation (c : Dev nD) : (rdat (F := F) m c).BodyObligation (defs₀ (F := F)) Variants.none () Set.univ := fun t Y hY => by
  rw [bigSep_W0, bigSep_W0]
  have e0 := finds0 m c t (Y 0) (hY 0)
  have e1 := finds1 m c t (Y 1) (hY 1)
  refine (show _ ⊢ bodyPre m c t (Y 2) from ?_).trans ((sound_body m c t (Y 2)).trans (wp_mono _ _ _ ?_))
  · unfold bodyPre; rw [e0, e1]
  · intro _
    unfold bodyPost
    iintro ⟨HP, Ho, H0, H1, H2⟩
    isplitl [HP]; · iexact HP
    isplitl [Ho]; · iexact Ho
    isplitl [H0]
    · iexists _; isplitr; · ipureintro; exact (after0 m c t _ _).mpr rfl
      rw [e0]; iexact H0
    isplitl [H1]
    · iexists _; isplitr; · ipureintro; exact (after1 m c t _ _).mpr rfl
      rw [e1]; iexact H1
    iexists _; isplitr; · ipureintro; exact (after2 m c t _ _).mpr rfl
    iexact H2

/-- What the launch hands the region is the invariant before the first point. -/
theorem hin (c : Dev nD) : Pipeline.ΦA spec0 c ⊢ (rdat m c).Φ 0 := by
  rw [show (rdat m c).Φ 0 = PhiS m c 0 (Nat.zero_le _) from rfl, PhiS_zero m c 0 _ rfl]
  try exact Idealize.SL.BI.Entails.refl _

/-- After the last point the invariant gives the resting one back: the scratch columns' values are forgotten. -/
theorem hout (c : Dev nD) : (rdat m c).Φ (Fin.last cfg0.N) ⊢ Pipeline.ΦA spec0 c := by
  rw [show (rdat m c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA_eq]
  iintro ⟨⟨HS0, HS1⟩, Hg⟩
  isplitl [HS0 HS1]
  · isplitl [HS0]
    · iexists _; iexact HS0
    · iexists _; iexact HS1
  iexact Hg

/-! ## The run -/

set_option backward.isDefEq.respectTransparency.types false in
/-- Every weakly fair execution of @main terminates without a fault; at the end every array of the pipeline holds
    contents it may hold after all the write-backs (an input its entry contents) and every other unscoped buffer
    what it held at the region's entry. -/
theorem run_main : θ_run defs (onTc (τ := τ) (main (F := F))) (s₀ m ρ) (Pipeline.RDat.FramePost (cfgs 0) (rdat m) (V m)) :=
  Pipeline.RDat.θ_run_frame_track cfgs (0 : Fin 1) launch0 defs₀ Variants.none (rdat m) m ρ main
    (hbody := body_obligation m) (hshare := fun c => (rdat m c).share_full fun _ => rfl)
    (howed := fun _ _ => rfl) (V := V m) (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m ρ)

end Cert.KernelIdeal.Body

end
-- ==== Proof.Spec.lean ====
/-
  The specification: the row softmax of the score matrix A·Bᵀ, on the extended reals.
  score(r, c) = Σ_d A(r, d) · B(c, d); the result at (r, c) is e^(score(r, c) - M_r) / Σ_c' e^(score(r, c') - M_r),
  with M_r the supremum of row r's scores.
-/
import Idealize.ShloMosaic.PureOps.Ideal
import Idealize.ShloMosaic.Lib.ValueIdx

noncomputable section

open scoped BigOperators

namespace Cert.Spec

open Idealize.ShloMosaic Idealize.ShloMosaic.ValueIdx

abbrev SIn : Shape := ⟨2, ![8192, 1024]⟩
abbrev SOut : Shape := ⟨2, ![8192, 8192]⟩

/-- The score of row `r` of the first matrix against row `c` of the second. -/
def score (a b : SIn.Idx → EReal) (r c : Fin 8192) : EReal := ∑ d : Fin 1024, a (ix2 r d) * b (ix2 c d)

/-- The largest score of row `r`. -/
def rowMax (a b : SIn.Idx → EReal) (r : Fin 8192) : EReal := Finset.univ.sup fun c => score a b r c

/-- The row softmax of the scores. -/
def G (a b : SIn.Idx → EReal) : SOut.Idx → EReal := fun i =>
  Ideal.div (Ideal.exp (score a b (i 0) (i 1) - rowMax a b (i 0)))
    (∑ c : Fin 8192, Ideal.exp (score a b (i 0) c - rowMax a b (i 0)))

/-- The pattern of minus infinity. -/
theorem ofBits_neg_inf : Ideal.ofBits .f32 0xFF800000#32 = ⊥ := by simp [Ideal.ofBits, Ideal.ieee]

end Cert.Spec

end
-- ==== Proof.LibTransposedMatmul.lean ====
/-
  A matrix product `[a, n] × [b, n]ᵀ` (both operands contracted on their columns, no batch axis) into the zero
  accumulator, read at an entry on the extended reals: entry `(r, j)` is the sum over `k` of the left operand at
  `(r, k)` times the right operand at `(j, k)`. General over the three extents, the two operand formats and the
  precision.
-/
import Idealize.ShloMosaic.Lib.ValueIdx
import Idealize.ShloMosaic.PureOps.Ideal.Laws

noncomputable section

open scoped BigOperators

namespace Cert.LibTransposedMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.transposedRhs a n b).contr.Idx) :
    ((DotDims.transposedRhs a n b).lhsIdx i q 0).val = (i 0).val := rfl

/-- … and the contraction coordinate as its column. -/
theorem lhs_col (i : (⟨2, ![a, b]⟩ : Shape).Idx) (q : (DotDims.transposedRhs a n b).contr.Idx) :
    ((DotDims.transposedRhs a n b).lhsIdx i q 1).val
      = (q (⟨0, Nat.one_pos⟩ : Fin (DotDims.transposedRhs a n b).contr.rank)).val :=
  (DotDims.transposedRhs a n b).lhsIdx_val_of_single rfl i q

/-- The right operand's index: row `i 1` … -/
theorem rhs_row (i : (⟨2, ![a, b]⟩ : Shape).Idx) (q : (DotDims.transposedRhs a n b).contr.Idx) :
    ((DotDims.transposedRhs a n b).rhsIdx i q 0).val = (i 1).val := rfl

/-- … and the contraction coordinate as its column. -/
theorem rhs_col (i : (⟨2, ![a, b]⟩ : Shape).Idx) (q : (DotDims.transposedRhs a n b).contr.Idx) :
    ((DotDims.transposedRhs a n b).rhsIdx i q 1).val
      = (q (⟨0, Nat.one_pos⟩ : Fin (DotDims.transposedRhs a n b).contr.rank)).val :=
  (DotDims.transposedRhs a n b).rhsIdx_val_of_single rfl i q

/-- A product with the transposed right operand into the zero accumulator, at entry `(r, j)`, is
    `Σₖ A (r, k) · B (j, k)`. -/
theorem matmul_zero_apply {φ₁ φ₂ : FTy} (prec : Option ContractPrecision) (A : FVec Ideal ⟨2, ![a, n]⟩ φ₁)
    (B : FVec Ideal ⟨2, ![b, n]⟩ φ₂) (r : Fin a) (j : Fin b) :
    FloatOps.matmul (DotDims.transposedRhs a n b) prec A B (constant ⟨2, ![a, b]⟩ .f32 0x00000000#32) (ix2 r j)
      = ∑ k : Fin n, A (ix2 r k) * B (ix2 j k) := by
  rw [Ideal.matmul_constant_zero_apply, ← Equiv.sum_comp (contrEquiv1 (DotDims.transposedRhs a n b) n rfl rfl).symm]
  refine Finset.sum_congr rfl fun k _ => ?_
  have hk := contrEquiv1_symm_val (DotDims.transposedRhs a n b) n rfl rfl k
  have el : (DotDims.transposedRhs a n b).lhsIdx (ix2 r j) ((contrEquiv1 (DotDims.transposedRhs a n b) n rfl rfl).symm k)
      = ix2 r k :=
    funext fun c => Fin.ext (by
      match c with
      | ⟨0, _⟩ => exact lhs_row _ _
      | ⟨1, _⟩ => exact (lhs_col _ _).trans hk)
  have er : (DotDims.transposedRhs a n b).rhsIdx (ix2 r j) ((contrEquiv1 (DotDims.transposedRhs a n b) n rfl rfl).symm k)
      = ix2 j k :=
    funext fun c => Fin.ext (by
      match c with
      | ⟨0, _⟩ => exact rhs_row _ _
      | ⟨1, _⟩ => exact (rhs_col _ _).trans hk)
  rw [el, er]

end Cert.LibTransposedMatmul

end
-- ==== Proof.KI.Blocks.lean ====
/-
  The kernel's tiles on the extended reals. The host's bf16 copies of the two arguments are the arguments; the first
  window's block at point t = 4 i + k is rows [256 i, 256 i + 256) of the first argument, the second window's block
  rows [2048 k, 2048 k + 2048) of the second; so the point's tile of raw scores holds, at (r, j), the score of row
  256 i + r against row 2048 k + j.
-/
import proofs.«122358_j90795608637906_2_alg».proof.Proof.KI.Data
import proofs.«122358_j90795608637906_2_alg».proof.Proof.Spec
import proofs.«122358_j90795608637906_2_alg».proof.Proof.LibTransposedMatmul
import Idealize.ShloMosaic.Lib.StableHlo.Run
import Idealize.ShloMosaic.Lib.Pipeline.Value

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (RDat)
open Cert.KernelIdeal Cert.KernelIdeal.Gen Cert.KernelIdeal.Body Cert.Spec

variable (m : (ℓ : Loc nD τ sig) → Buf (Elt Ideal) ℓ)

/-- The first argument, as an array of extended reals. -/
abbrev argA (c : Dev nD) : SIn.Idx → EReal := m ((c : Thread nD τ).loc main_arg0)
/-- The second argument. -/
abbrev argB (c : Dev nD) : SIn.Idx → EReal := m ((c : Thread nD τ).loc main_arg1)

/-- On the extended reals the bf16 copy of the first argument is the first argument. -/
theorem V_v0 (c : Dev nD) : (V m c main_v0 : S8192x1024.Idx → EReal) = argA m c := by
  dsimp only [Gen.V, Gen.hostOps0]; after_results; rfl
theorem V_v1 (c : Dev nD) : (V m c main_v1 : S8192x1024.Idx → EReal) = argB m c := by
  dsimp only [Gen.V, Gen.hostOps0]; after_results; rfl

/-- The windows' block indices, decided over the grid. -/
theorem idx0 : ∀ t : Fin cfg0.N, win0_0.index t 0 = t.val / 4 ∧ win0_0.index t 1 = 0 :=
  (by decide +kernel : ∀ t : Fin grid0.N, win0_0.index t 0 = t.val / 4 ∧ win0_0.index t 1 = 0)
theorem idx1 : ∀ t : Fin cfg0.N, win0_1.index t 0 = t.val % 4 ∧ win0_1.index t 1 = 0 :=
  (by decide +kernel : ∀ t : Fin grid0.N, win0_1.index t 0 = t.val % 4 ∧ win0_1.index t 1 = 0)
theorem idx2 : ∀ t : Fin cfg0.N, win0_2.index t 0 = t.val / 4 ∧ win0_2.index t 1 = 0 :=
  (by decide +kernel : ∀ t : Fin grid0.N, win0_2.index t 0 = t.val / 4 ∧ win0_2.index t 1 = 0)

theorem lt128 (t : Fin cfg0.N) : t.val < 128 := lt_of_lt_of_eq t.isLt (show cfg0.N = 128 from N_0)

/-- Row `r` of the row tile of point `t`, as a row of the whole matrix. -/
def rowOf (t : Fin cfg0.N) (r : Fin 256) : Fin 8192 := ⟨256 * (t.val / 4) + r.val, by have := lt128 t; omega⟩
/-- Column `j` of the column tile of point `t`, as a column of the whole matrix. -/
def colOf (t : Fin cfg0.N) (j : Fin 2048) : Fin 8192 := ⟨2048 * (t.val % 4) + j.val, by omega⟩

theorem ublk_apply (c : Dev nD) (t : Fin cfg0.N) (r : Fin 256) (d : Fin 1024) :
    (iblk m c 0 t : Vec Ideal S256x1024 .bf16) (ix2 r d) = argA m c (ix2 (rowOf t r) d) := by
  have hi := idx0 t
  unfold iblk
  rw [View.read_apply]
  show V m c main_v0 _ = argA m c _
  rw [V_v0]
  congr 1
  funext a
  apply Fin.ext
  match a with
  | ⟨0, _⟩ => show win0_0.index t 0 * 256 + 1 * r.val = 256 * (t.val / 4) + r.val; rw [hi.1]; omega
  | ⟨1, _⟩ => show win0_0.index t 1 * 1024 + 1 * d.val = d.val; rw [hi.2]; omega

theorem idblk_apply (c : Dev nD) (t : Fin cfg0.N) (j : Fin 2048) (d : Fin 1024) :
    (iblk m c 1 t : Vec Ideal S2048x1024 .bf16) (ix2 j d) = argB m c (ix2 (colOf t j) d) := by
  have hi := idx1 t
  unfold iblk
  rw [View.read_apply]
  show V m c main_v1 _ = argB m c _
  rw [V_v1]
  congr 1
  funext a
  apply Fin.ext
  match a with
  | ⟨0, _⟩ => show win0_1.index t 0 * 2048 + 1 * j.val = 2048 * (t.val % 4) + j.val; rw [hi.1]; omega
  | ⟨1, _⟩ => show win0_1.index t 1 * 1024 + 1 * d.val = d.val; rw [hi.2]; omega

/-- The point's tile of raw scores at an entry. -/
theorem tile_apply (c : Dev nD) (t : Fin cfg0.N) (r : Fin 256) (j : Fin 2048) :
    tileAt m c t (ix2 r j) = score (argA m c) (argB m c) (rowOf t r) (colOf t j) := by
  simp only [tileAt, k0_pay4, shapeCast_self]
  refine (Cert.LibTransposedMatmul.matmul_zero_apply (a := 256) (n := 1024) (b := 2048) (φ₁ := .bf16) (φ₂ := .bf16) none
    (iblk m c 0 t : Vec Ideal S256x1024 .bf16) (iblk m c 1 t : Vec Ideal S2048x1024 .bf16) r j).trans ?_
  unfold score
  refine Finset.sum_congr rfl fun d _ => ?_
  rw [ublk_apply, idblk_apply]

end Cert.KernelIdeal.Val

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.LibRowMax.lean ====
/-
  Maxima along one axis on the extended reals. A lane maximum over the second axis of a matrix, read at a row: the
  fold of `max`, from the value of the accumulator's pattern, over that row's entries. A host reduction by maximum over
  one axis, read at a result index: the fold of `max`, from the initial value, over that axis's coordinates.
  General in the shapes.
-/
import Idealize.ShloMosaic.Lib.ValueIdx
import Idealize.ShloMosaic.PureOps.Ideal.Laws

noncomputable section

namespace Cert.LibRowMax

open Idealize.ShloMosaic Idealize.ShloMosaic.ValueIdx

/-- On the extended reals a lane maximum over the second axis of an `[a, b]` matrix is, at row `r`, the fold of `max`
    from the accumulator's value over that row's entries. -/
theorem multiReduction_maximumf_rows {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun d => src (ix2 r d)) := by
  refine (Ideal.multiReduction_maximumf_single src acc h hφ hacc (ix1 r)).trans ?_
  refine congrArg (fun f => (Finset.univ : Finset (Fin b)).fold max (Ideal.ofBits .f32 acc) f) (funext fun d => ?_)
  refine congrArg src (funext fun ax => Fin.ext ?_)
  match ax with
  | ⟨0, _⟩ => rfl
  | ⟨1, _⟩ => rfl

/-- On the extended reals the host's reduction by maximum over ONE axis is, at a result index `j`, the fold of `max` from
    the initial value over that axis's coordinates (the index `j` with the coordinate inserted on the reduced axis). -/
theorem hostReduce_maximumf_single {s t u : Shape} {a : Fin s.rank} (x : s.Idx → EReal) (init : u.Idx → EReal)
    (h' : s.ReducesTo [a] t) (h : s.Reduces [a] t) (hu : 0 < u.numel) (j : t.Idx) :
    Host.reduce (FloatOps.maximumf (F := Ideal) (φ := .f32)) x init h' hu j
      = (Finset.univ : Finset (Fin (s.size a))).fold max (init (Shape.Idx.first hu)) (fun k => x (h.lift j k)) :=
  Host.reduce_eq_fold_single (FloatOps.maximumf (F := Ideal) (φ := .f32)) x init h' h hu j

end Cert.LibRowMax

end
-- ==== Proof.LibRealLaw.lean ====
/- The real-number law behind a linear cross-attention, stated over the extended reals.

   At the ideal reading a float is an extended real.  Two programs compute, from real inputs
   `l e`, `g m e`, `v m`,

     reference:  ∑ m, ((∑ e, l e * g m e) / 1024) * v m
     kernel:     ∑ e, l e * ((∑ m, g m e * v m) * (1/1024))

   Over the reals these agree: distribute the constant and exchange the two finite sums.  Over the
   extended reals multiplication does not distribute over addition in general (`⊤ + ⊥`, `0 * ⊤`),
   so the law is stated for extended reals that are known to be (coercions of) real numbers, and
   proved by pulling the coercion `ℝ → EReal` outside every product and finite sum. -/
import Idealize.ShloMosaic.PureOps.Ideal

noncomputable section

open Idealize.ShloMosaic

namespace Cert.Attn.RealLaw

/-! ### Extended reals that are real numbers -/

/-- An extended real is *real* when it is the image of some real number, that is, it is neither
    `⊤` nor `⊥`. -/
def IsReal (x : EReal) : Prop := ∃ r : ℝ, x = (r : EReal)

/-- The image of a real number is real. -/
theorem isReal_coe (r : ℝ) : IsReal (r : EReal) := ⟨r, rfl⟩

/-- The product of two real extended reals is real: `↑a * ↑b = ↑(a * b)`. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The sum of two real extended reals is real: `↑a + ↑b = ↑(a + b)`. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The coercion `ℝ → EReal` commutes with a finite sum: the image of `∑ k ∈ s, f k` is the sum of
    the images. -/
theorem coe_sum {K : Type*} (s : Finset K) (f : K → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

variable {E M K : Type*} [Fintype E] [Fintype M] [Fintype K]

/-- A finite sum of real extended reals is real. -/
theorem isReal_sum {f : K → EReal} (hf : ∀ k, IsReal (f k)) : IsReal (∑ k, f k) := by
  choose f' hf' using hf
  refine ⟨∑ k, f' k, ?_⟩
  rw [coe_sum]
  exact Finset.sum_congr rfl fun k _ => hf' k

/-- A finite sum of products of real extended reals is real. -/
theorem isReal_sum_mul {a b : K → EReal} (ha : ∀ k, IsReal (a k)) (hb : ∀ k, IsReal (b k)) :
    IsReal (∑ k, a k * b k) :=
  isReal_sum fun k => isReal_mul (ha k) (hb k)

/-- The hyperbolic tangent of a real extended real is real: on the image of `r` it is the image of
    `Real.tanh r`. -/
theorem isReal_tanh {x : EReal} (hx : IsReal x) : IsReal (Ideal.tanh x) := by
  obtain ⟨r, rfl⟩ := hx
  exact ⟨Real.tanh r, Ideal.tanh_coe r⟩

/-! ### The two literals -/

/-- The single-precision pattern `0x3A800000` (sign `0`, exponent field `117`, significand field `0`)
    denotes `2 ^ (117 - 127) = 2 ^ (-10) = 1 / 1024`. -/
theorem inv_1024 : Ideal.ofBits .f32 0x3A800000#32 = (((1 / 1024 : ℝ)) : EReal) := by
  simp [Ideal.ofBits, Ideal.ieee, -EReal.coe_mul]; norm_num

/-- The single-precision pattern `0x44800000` (sign `0`, exponent field `137`, significand field `0`)
    denotes `2 ^ (137 - 127) = 2 ^ 10 = 1024`. -/
theorem lit_1024 : Ideal.ofBits .f32 0x44800000#32 = ((1024 : ℝ) : EReal) := by
  simp [Ideal.ofBits, Ideal.ieee, -EReal.coe_mul]; norm_num

/-! ### The law -/

/-- The reassociation law over the reals: for real numbers `l e`, `g m e`, `v m` over finite index
    types, `∑ m, ((∑ e, l e * g m e) * c) * v m = ∑ e, l e * ((∑ m, g m e * v m) * c)`.  Distribute
    the products over the inner sums, exchange the two sums, and compare term by term. -/
theorem reassoc_real (l : E → ℝ) (g : M → E → ℝ) (v : M → ℝ) (c : ℝ) :
    (∑ m, (∑ e, l e * g m e) * c * v m) = ∑ e, l e * ((∑ m, g m e * v m) * c) := by
  simp only [Finset.sum_mul, Finset.mul_sum]
  rw [Finset.sum_comm]
  refine Finset.sum_congr rfl fun e _ => Finset.sum_congr rfl fun m _ => ?_
  ring

/-- The reassociation law over the extended reals, for real entries: if every `l e`, `g m e` and
    `v m` is real then
    `∑ m, ((∑ e, l e * g m e) / 1024) * v m = ∑ e, l e * ((∑ m, g m e * v m) * (1/1024))`,
    where `/` is the ideal division.  Division by the nonzero real `1024` is multiplication by its
    reciprocal; then both sides are images of real numbers, equal by the law over the reals. -/
theorem reassoc (l : E → EReal) (g : M → E → EReal) (v : M → EReal)
    (hl : ∀ e, IsReal (l e)) (hg : ∀ m e, IsReal (g m e)) (hv : ∀ m, IsReal (v m)) :
    (∑ m, Ideal.div (∑ e, l e * g m e) ((1024 : ℝ) : EReal) * v m)
      = ∑ e, l e * ((∑ m, g m e * v m) * (((1 / 1024 : ℝ)) : EReal)) := by
  choose l' hl' using hl
  choose g' hg' using hg
  choose v' hv' using hv
  have h1024 : (1024 : ℝ) ≠ 0 := by norm_num
  simp only [hl', hg', hv', Ideal.div_coe h1024, ← EReal.coe_mul, ← coe_sum]
  exact congrArg _ (reassoc_real l' g' v' (1 / 1024))

/-- The same law with a common additive tail `x` (any extended real) on both sides. -/
theorem reassoc_add (l : E → EReal) (g : M → E → EReal) (v : M → EReal)
    (hl : ∀ e, IsReal (l e)) (hg : ∀ m e, IsReal (g m e)) (hv : ∀ m, IsReal (v m)) (x : EReal) :
    (∑ m, Ideal.div (∑ e, l e * g m e) ((1024 : ℝ) : EReal) * v m) + x
      = (∑ e, l e * ((∑ m, g m e * v m) * (((1 / 1024 : ℝ)) : EReal))) + x :=
  congrArg (· + x) (reassoc l g v hl hg hv)

end Cert.Attn.RealLaw

end
-- ==== Proof.LibOnlineSoftmax.lean ====
/-
  The online softmax recurrence on the extended reals, and the closed forms of its running state.

  One row of attention scores arrives in blocks `s 0, s 1, …` over a finite index type `J`, with one column of
  values `v 0, v 1, …` beside them. The recurrence keeps three numbers: the running maximum `m`, the running
  denominator `l` and the running numerator `a`; at block `n` it replaces them by

      m' = max m (sup_j s n j),   l' = e^(m - m') · l + Σ_j e^(s n j - m'),   a' = e^(m - m') · a + Σ_j e^(s n j - m') · v n j,

  starting from `(-∞, 0, 0)`. When every score and value is a real number, after `n` blocks

      m = the maximum of the scores seen,  l = Σ_{k<n} Σ_j e^(s k j - m),  a = Σ_{k<n} Σ_j e^(s k j - m) · v k j,

  because `e^(μ - μ') · e^(x - μ) = e^(x - μ')` for real `μ, μ', x` and a real factor distributes over a finite real sum
  (at the first block the factor `e^(-∞ - m')` multiplies `0`). Consequently `a / l` after the last block is the softmax
  of the whole row applied to the values: `Σ_n (e^(S n - M) / Σ_n' e^(S n' - M)) · X n`, the denominator being a positive real.
-/
import proofs.«122358_j90795608637906_2_alg».proof.Proof.LibRealLaw

noncomputable section

open scoped BigOperators

namespace Cert.Attn.Online

open Idealize.ShloMosaic Cert.Attn.RealLaw

/-- A fold of `max` from `-∞` is the supremum. -/
theorem fold_max_bot {ι : Type*} (t : Finset ι) (f : ι → EReal) : t.fold max ⊥ f = t.sup f := by
  classical
  induction t using Finset.induction_on with
  | empty => simp
  | insert a t ha ih => rw [Finset.fold_insert ha, Finset.sup_insert, ih]

variable {J : Type*} [Fintype J]

/-- The running maximum after `n` blocks. -/
def runM (s : ℕ → J → EReal) : ℕ → EReal
  | 0 => ⊥
  | n + 1 => max (runM s n) (Finset.univ.sup (s n))

/-- The running denominator after `n` blocks. -/
def runL (s : ℕ → J → EReal) : ℕ → EReal
  | 0 => 0
  | n + 1 => Ideal.exp (runM s n - runM s (n + 1)) * runL s n + ∑ j, Ideal.exp (s n j - runM s (n + 1))

/-- The running numerator after `n` blocks, for one column `v` of values. -/
def runA (s v : ℕ → J → EReal) : ℕ → EReal
  | 0 => 0
  | n + 1 => Ideal.exp (runM s n - runM s (n + 1)) * runA s v n + ∑ j, Ideal.exp (s n j - runM s (n + 1)) * v n j

/-- The running maximum is the supremum of the scores seen. -/
theorem runM_eq_sup (s : ℕ → J → EReal) (n : ℕ) :
    runM s n = (Finset.range n).sup fun k => Finset.univ.sup (s k) := by
  induction n with
  | zero => simp [runM]
  | succ n ih => rw [runM, ih, Finset.range_add_one, Finset.sup_insert, max_comm]

/-- Over real scores and a nonempty block the running maximum is a real number from the first block on. -/
theorem runM_real [Nonempty J] (s' : ℕ → J → ℝ) (n : ℕ) :
    ∃ μ : ℝ, runM (fun k j => ((s' k j : ℝ) : EReal)) (n + 1) = (μ : EReal) := by
  induction n with
  | zero =>
    obtain ⟨j, -, hj⟩ := Finset.exists_mem_eq_sup Finset.univ Finset.univ_nonempty (fun j : J => ((s' 0 j : ℝ) : EReal))
    exact ⟨s' 0 j, by rw [runM, runM, hj]; exact max_eq_right bot_le⟩
  | succ n ih =>
    obtain ⟨μ, hμ⟩ := ih
    obtain ⟨j, -, hj⟩ := Finset.exists_mem_eq_sup Finset.univ Finset.univ_nonempty (fun j : J => ((s' (n + 1) j : ℝ) : EReal))
    exact ⟨max μ (s' (n + 1) j), by rw [runM, hμ, hj]; exact (EReal.coe_strictMono.monotone.map_max).symm⟩

/-- The real rescaling law: `e^(μ - μ') · Σ e^(x - μ) · g = Σ e^(x - μ') · g`. -/
theorem rescale (R : Finset ℕ) (s' g : ℕ → J → ℝ) (μ μ' : ℝ) :
    Real.exp (μ - μ') * ∑ k ∈ R, ∑ j, Real.exp (s' k j - μ) * g k j = ∑ k ∈ R, ∑ j, Real.exp (s' k j - μ') * g k j := by
  rw [Finset.mul_sum]
  refine Finset.sum_congr rfl fun k _ => ?_
  rw [Finset.mul_sum]
  refine Finset.sum_congr rfl fun j _ => ?_
  rw [← mul_assoc, ← Real.exp_add]
  congr 2
  ring

/-- The running numerator in closed form. -/
theorem runA_closed [Nonempty J] (s' v' : ℕ → J → ℝ) (n : ℕ) :
    runA (fun k j => ((s' k j : ℝ) : EReal)) (fun k j => ((v' k j : ℝ) : EReal)) n
      = ∑ k ∈ Finset.range n, ∑ j, Ideal.exp (((s' k j : ℝ) : EReal) - runM (fun k j => ((s' k j : ℝ) : EReal)) n) * ((v' k j : ℝ) : EReal) := by
  induction n with
  | zero => simp [runA]
  | succ n ih =>
    rw [runA, ih, Finset.sum_range_succ]
    refine congrArg (· + _) ?_
    cases n with
    | zero => simp
    | succ n =>
      obtain ⟨μ, hμ⟩ := runM_real s' n
      obtain ⟨μ', hμ'⟩ := runM_real s' (n + 1)
      simp only [hμ, hμ', ← EReal.coe_sub, Ideal.exp_coe, ← EReal.coe_mul, ← coe_sum]
      exact congrArg _ (rescale _ s' v' μ μ')

/-- The running denominator in closed form. -/
theorem runL_closed [Nonempty J] (s' : ℕ → J → ℝ) (n : ℕ) :
    runL (fun k j => ((s' k j : ℝ) : EReal)) n
      = ∑ k ∈ Finset.range n, ∑ j, Ideal.exp (((s' k j : ℝ) : EReal) - runM (fun k j => ((s' k j : ℝ) : EReal)) n) := by
  induction n with
  | zero => simp [runL]
  | succ n ih =>
    rw [runL, ih, Finset.sum_range_succ]
    refine congrArg (· + _) ?_
    cases n with
    | zero => simp
    | succ n =>
      obtain ⟨μ, hμ⟩ := runM_real s' n
      obtain ⟨μ', hμ'⟩ := runM_real s' (n + 1)
      simp only [hμ, hμ', ← EReal.coe_sub, Ideal.exp_coe, ← EReal.coe_mul, ← coe_sum]
      refine congrArg _ ?_
      simpa using rescale (Finset.range (n + 1)) s' (fun _ _ => (1 : ℝ)) μ μ'

end Cert.Attn.Online

end
-- ==== Proof.KI.Scratch.lean ====
/-
  The body's payloads on the extended reals, read at a row, and the scratch columns as the online softmax recurrence.

  With T the point's tile of raw scores and (m, l) the scratch columns before the point: the new running maximum of
  row r is max m(r) (sup_j T(r, j)), the new running denominator e^(m(r) - m'(r)) · l(r) + Σ_j e^(T(r, j) - m'(r)); a
  row tile's first point starts from (-∞, 0). So after the k-th column tile of a row tile the scratch columns hold, at
  row r, the recurrence's state after k + 1 blocks of that row's scores. The final store is e^(x - (m + log l)).
-/
import proofs.«122358_j90795608637906_2_alg».proof.Proof.KI.Blocks
import proofs.«122358_j90795608637906_2_alg».proof.Proof.LibKeepdims
import proofs.«122358_j90795608637906_2_alg».proof.Proof.LibRowMax
import proofs.«122358_j90795608637906_2_alg».proof.Proof.LibOnlineSoftmax

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (RDat)
open Cert.KernelIdeal Cert.KernelIdeal.Gen Cert.KernelIdeal.Body Cert.Spec

variable (m : (ℓ : Loc nD τ sig) → Buf (Elt Ideal) ℓ)

open Cert.Attn.Online

variable (x0 : Vec Ideal S256x1024 .bf16) (x1 : Vec Ideal S2048x1024 .bf16)

theorem pay5_apply (v8 : FVec Ideal S256x1 .f32) (r : Fin 256) :
    k0_pay5 x0 x1 v8 (ix2 r (0 : Fin 1))
      = max (v8 (ix2 r (0 : Fin 1))) (Finset.univ.sup fun j : Fin 2048 => k0_pay4 x0 x1 (ix2 r j)) := by
  unfold k0_pay5
  show max (v8 (ix2 r (0 : Fin 1))) (shapeCast S256x1 (multiReduction .maximumf [1] S256 (k0_pay4 x0 x1) 0xFF800000#32 Facts₀.reduces_S256x2048_S256 (.inl rfl) rfl) Facts₀.shapeCasts_S256_S256x1 (ix2 r (0 : Fin 1))) = _
  refine congrArg (max (v8 (ix2 r (0 : Fin 1)))) ?_
  refine (Cert.LibKeepdims.shapeCast_a_a1_apply _ _ r 0).trans ?_
  refine (Cert.LibRowMax.multiReduction_maximumf_rows _ _ _ _ _ r).trans ?_
  rw [ofBits_neg_inf, fold_max_bot]

theorem pay7_eq (v8 : FVec Ideal S256x1 .f32) : k0_pay7 x0 x1 v8 = k0_pay5 x0 x1 v8 := by
  unfold k0_pay7; exact shapeCast_self _ _

theorem pay6_apply (v8 v12 v20 : FVec Ideal S256x1 .f32) (r : Fin 256) :
    k0_pay6 x0 x1 v8 v12 v20 (ix2 r (0 : Fin 1))
      = Ideal.exp (v12 (ix2 r (0 : Fin 1)) - k0_pay5 x0 x1 v8 (ix2 r (0 : Fin 1))) * v20 (ix2 r (0 : Fin 1))
        + ∑ j : Fin 2048, Ideal.exp (k0_pay4 x0 x1 (ix2 r j) - k0_pay5 x0 x1 v8 (ix2 r (0 : Fin 1))) := by
  unfold k0_pay6
  refine (congrFun (shapeCast_self _ _) _).trans ?_
  show Ideal.exp (v12 (ix2 r (0 : Fin 1)) - k0_pay5 x0 x1 v8 (ix2 r (0 : Fin 1))) * v20 (ix2 r (0 : Fin 1))
      + shapeCast S256x1 (multiReduction .add [1] S256 (exp (subf (k0_pay4 x0 x1) (broadcastTo S256x2048 (k0_pay5 x0 x1 v8) Facts₀.broadcasts_S256x1_S256x2048))) 0x00000000#32 Facts₀.reduces_S256x2048_S256 (.inl rfl) rfl) Facts₀.shapeCasts_S256_S256x1 (ix2 r (0 : Fin 1)) = _
  refine congrArg (fun z : EReal => Ideal.exp (v12 (ix2 r (0 : Fin 1)) - k0_pay5 x0 x1 v8 (ix2 r (0 : Fin 1))) * v20 (ix2 r (0 : Fin 1)) + z) ?_
  refine (Cert.LibKeepdims.shapeCast_a_a1_apply _ _ r 0).trans ?_
  refine (Cert.LibKeepdims.multiReduction_add_rows _ _ _ _ _ r).trans ?_
  refine Finset.sum_congr rfl fun j _ => ?_
  show Ideal.exp (k0_pay4 x0 x1 (ix2 r j) - broadcastTo S256x2048 (k0_pay5 x0 x1 v8) Facts₀.broadcasts_S256x1_S256x2048 (ix2 r j)) = _
  rw [Cert.LibKeepdims.broadcastTo_a1_ab_apply]

theorem pay2_apply (r : Fin 256) : k0_pay2 (F := Ideal) (ix2 r (0 : Fin 1)) = ⊥ := by
  unfold k0_pay2
  refine (congrFun (shapeCast_self _ _) _).trans ?_
  exact ofBits_neg_inf

theorem pay3_apply (r : Fin 256) : k0_pay3 (F := Ideal) (ix2 r (0 : Fin 1)) = 0 := by
  unfold k0_pay3
  refine (congrFun (shapeCast_self _ _) _).trans ?_
  exact Ideal.ofBits_zero_f32

theorem pay1_apply (v36 v37 : FVec Ideal S256x1 .f32) (v40 : FVec Ideal S256x8192 .f32) (r : Fin 256) (q : Fin 8192) :
    k0_pay1 (F := Ideal) v36 v37 v40 (ix2 r q)
      = Ideal.exp (v40 (ix2 r q) - (v36 (ix2 r (0 : Fin 1)) + Ideal.log (v37 (ix2 r (0 : Fin 1))))) := by
  unfold k0_pay1
  show Ideal.exp (shapeCast S256x8192 v40 Facts₀.shapeCasts_S256x8192_S256x8192 (ix2 r q)
      - broadcastTo S256x8192 (addf v36 (log v37)) Facts₀.broadcasts_S256x1_S256x8192 (ix2 r q)) = _
  rw [shapeCast_self, Cert.LibKeepdims.broadcastTo_a1_ab_apply]
  rfl

/-! ## The scratch columns are the recurrence's state -/

/-- Row `r` of row tile `i`'s scores, block by block (zero past the grid). -/
def srow (c : Dev nD) (i : ℕ) (r : Fin 256) : ℕ → Fin 2048 → EReal := fun k j =>
  if h : 4 * i + k < cfg0.N then tileAt m c ⟨4 * i + k, h⟩ (ix2 r j) else 0

theorem srow_at (c : Dev nD) (t : Fin cfg0.N) (r : Fin 256) (j : Fin 2048) :
    srow m c (t.val / 4) r (t.val % 4) j = tileAt m c t (ix2 r j) := by
  unfold srow
  have e : 4 * (t.val / 4) + t.val % 4 = t.val := Nat.div_add_mod _ _
  rw [dif_pos (by rw [e]; exact t.isLt)]
  exact congrArg (fun u => tileAt m c u (ix2 r j)) (Fin.ext e)

theorem scAt_row (c : Dev nD) (r : Fin 256) : ∀ (n : ℕ) (hn : n < cfg0.N),
    (scAt m c n hn).1 (ix2 r (0 : Fin 1)) = runM (srow m c (n / 4) r) (n % 4 + 1)
    ∧ (scAt m c n hn).2 (ix2 r (0 : Fin 1)) = runL (srow m c (n / 4) r) (n % 4 + 1) := by
  intro n
  induction n with
  | zero =>
    intro hn
    have hsup : (Finset.univ.sup fun j : Fin 2048 => k0_pay4 (iblk m c 0 ⟨0, hn⟩) (iblk m c 1 ⟨0, hn⟩) (ix2 r j))
        = Finset.univ.sup (srow m c (0 / 4) r 0) :=
      congrArg (Finset.univ.sup) (funext fun j => (srow_at m c ⟨0, hn⟩ r j).symm)
    have h1 : (scAt m c 0 hn).1 (ix2 r (0 : Fin 1)) = runM (srow m c (0 / 4) r) (0 % 4 + 1) := by
      show k0_pay7 (F := Ideal) _ _ (k0_pay2 (F := Ideal)) (ix2 r (0 : Fin 1)) = _
      rw [pay7_eq, pay5_apply, pay2_apply, hsup]; rfl
    refine ⟨h1, ?_⟩
    show k0_pay6 (F := Ideal) _ _ (k0_pay2 (F := Ideal)) (k0_pay2 (F := Ideal)) (k0_pay3 (F := Ideal)) (ix2 r (0 : Fin 1)) = _
    rw [pay6_apply, pay2_apply, pay3_apply]
    have h5 : k0_pay5 (iblk m c 0 ⟨0, hn⟩) (iblk m c 1 ⟨0, hn⟩) (k0_pay2 (F := Ideal)) (ix2 r (0 : Fin 1)) = runM (srow m c (0 / 4) r) (0 % 4 + 1) := by
      rw [← pay7_eq]; exact h1
    rw [h5]
    show _ = Ideal.exp (runM (srow m c (0 / 4) r) 0 - runM (srow m c (0 / 4) r) 1) * runL (srow m c (0 / 4) r) 0
      + ∑ j, Ideal.exp (srow m c (0 / 4) r 0 j - runM (srow m c (0 / 4) r) 1)
    refine congrArg (fun z : EReal => Ideal.exp (⊥ - runM (srow m c (0 / 4) r) (0 % 4 + 1)) * 0 + z) (Finset.sum_congr rfl fun j _ => ?_)
    exact congrArg (fun x => Ideal.exp (x - runM (srow m c (0 / 4) r) 1)) (srow_at m c ⟨0, hn⟩ r j).symm
  | succ n ih =>
    intro hn
    obtain ⟨ihM, ihL⟩ := ih (Nat.lt_of_succ_lt hn)
    have hsup : (Finset.univ.sup fun j : Fin 2048 => k0_pay4 (iblk m c 0 ⟨n + 1, hn⟩) (iblk m c 1 ⟨n + 1, hn⟩) (ix2 r j))
        = Finset.univ.sup (srow m c ((n + 1) / 4) r ((n + 1) % 4)) :=
      congrArg (Finset.univ.sup) (funext fun j => (srow_at m c ⟨n + 1, hn⟩ r j).symm)
    have hsum : ∀ μ : EReal, (∑ j : Fin 2048, Ideal.exp (k0_pay4 (iblk m c 0 ⟨n + 1, hn⟩) (iblk m c 1 ⟨n + 1, hn⟩) (ix2 r j) - μ))
        = ∑ j : Fin 2048, Ideal.exp (srow m c ((n + 1) / 4) r ((n + 1) % 4) j - μ) := fun μ =>
      Finset.sum_congr rfl fun j _ => congrArg (fun x => Ideal.exp (x - μ)) (srow_at m c ⟨n + 1, hn⟩ r j).symm
    by_cases h0 : (n + 1) % 4 = 0
    · have e := scAt_reset m c ⟨n + 1, hn⟩ h0
      have e' : scAt m c (n + 1) hn = scStep (iblk m c 0 ⟨n + 1, hn⟩) (iblk m c 1 ⟨n + 1, hn⟩) (k0_pay2 (F := Ideal), k0_pay3 (F := Ideal)) := e
      rw [e', h0]
      have h1 : (scStep (iblk m c 0 ⟨n + 1, hn⟩) (iblk m c 1 ⟨n + 1, hn⟩) (k0_pay2 (F := Ideal), k0_pay3 (F := Ideal))).1 (ix2 r (0 : Fin 1))
          = runM (srow m c ((n + 1) / 4) r) (0 + 1) := by
        show k0_pay7 (F := Ideal) _ _ (k0_pay2 (F := Ideal)) (ix2 r (0 : Fin 1)) = _
        rw [pay7_eq, pay5_apply, pay2_apply, hsup, h0]; rfl
      refine ⟨h1, ?_⟩
      show k0_pay6 (F := Ideal) _ _ (k0_pay2 (F := Ideal)) (k0_pay2 (F := Ideal)) (k0_pay3 (F := Ideal)) (ix2 r (0 : Fin 1)) = _
      rw [pay6_apply, pay2_apply, pay3_apply]
      have h5 : k0_pay5 (iblk m c 0 ⟨n + 1, hn⟩) (iblk m c 1 ⟨n + 1, hn⟩) (k0_pay2 (F := Ideal)) (ix2 r (0 : Fin 1)) = runM (srow m c ((n + 1) / 4) r) (0 + 1) := by
        rw [← pay7_eq]; exact h1
      rw [h5, hsum, h0]
      rfl
    · have e := scAt_carry m c ⟨n + 1, hn⟩ h0
      have e' : scAt m c (n + 1) hn = scStep (iblk m c 0 ⟨n + 1, hn⟩) (iblk m c 1 ⟨n + 1, hn⟩) (scAt m c n (Nat.lt_of_succ_lt hn)) := e
      have hd : n / 4 = (n + 1) / 4 := by omega
      have hk : n % 4 + 1 = (n + 1) % 4 := by omega
      rw [hd, hk] at ihM ihL
      rw [e']
      have h1 : (scStep (iblk m c 0 ⟨n + 1, hn⟩) (iblk m c 1 ⟨n + 1, hn⟩) (scAt m c n (Nat.lt_of_succ_lt hn))).1 (ix2 r (0 : Fin 1))
          = runM (srow m c ((n + 1) / 4) r) ((n + 1) % 4 + 1) := by
        show k0_pay7 (F := Ideal) _ _ (scAt m c n (Nat.lt_of_succ_lt hn)).1 (ix2 r (0 : Fin 1)) = _
        rw [pay7_eq, pay5_apply, ihM, hsup]; rfl
      refine ⟨h1, ?_⟩
      show k0_pay6 (F := Ideal) _ _ (scAt m c n (Nat.lt_of_succ_lt hn)).1 (scAt m c n (Nat.lt_of_succ_lt hn)).1 (scAt m c n (Nat.lt_of_succ_lt hn)).2 (ix2 r (0 : Fin 1)) = _
      rw [pay6_apply, ihM, ihL]
      have h5 : k0_pay5 (iblk m c 0 ⟨n + 1, hn⟩) (iblk m c 1 ⟨n + 1, hn⟩) (scAt m c n (Nat.lt_of_succ_lt hn)).1 (ix2 r (0 : Fin 1)) = runM (srow m c ((n + 1) / 4) r) ((n + 1) % 4 + 1) := by
        rw [← pay7_eq]; exact h1
      rw [h5, hsum]
      rfl

end Cert.KernelIdeal.Val

end
-- ==== Proof.KI.Chain.lean ====
/-
  What the output strip buffer can hold when a row tile's last point hands it back: whatever it held before the row
  tile's first point, the four points overwrite the four column strips in turn, so before the normalisation entry
  (r, q) is the raw score of the tile's row r against column q, and after it e^(score - (m + log l)).
-/
import proofs.«122358_j90795608637906_2_alg».proof.Proof.KI.Scratch

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (RDat)
open Cert.KernelIdeal Cert.KernelIdeal.Gen Cert.KernelIdeal.Body Cert.Spec

variable (m : (ℓ : Loc nD τ sig) → Buf (Elt Ideal) ℓ)

open Cert.Attn.Online

/-- The output window is never fetched. -/
theorem fetch2 : ∀ t : Fin cfg0.N, (cfg0.win 2).fetch t = false :=
  (by decide +kernel : ∀ t : Fin grid0.N, win0_2.fetch t = false)

/-- A strip store read at an entry of its strip … -/
theorem stripAt_hit (k : ℕ) (Y : Vec Ideal S256x8192 .f32) (T : Vec Ideal S256x2048 .f32) (r : Fin 256) (q : Fin 8192)
    (h : 2048 * k ≤ q.val ∧ q.val < 2048 * k + 2048) :
    stripAt ![0, 2048 * k] Y T (ix2 r q) = T (ix2 r ⟨q.val - 2048 * k, by omega⟩) := by
  unfold stripAt
  have H : ∀ a : Fin 2, (![0, 2048 * k] : Fin 2 → ℕ) a ≤ ((ix2 r q : S256x8192.Idx) a).val
      ∧ ((ix2 r q : S256x8192.Idx) a).val < (![0, 2048 * k] : Fin 2 → ℕ) a + S256x2048.size a :=
    Fin.forall_fin_two.mpr ⟨⟨Nat.zero_le _, by show r.val < 0 + 256; omega⟩, h⟩
  rw [dif_pos H]
  refine congrArg T (funext fun a => Fin.ext ?_)
  match a with
  | ⟨0, _⟩ => show r.val - 0 = r.val; omega
  | ⟨1, _⟩ => rfl

/-- … and off it. -/
theorem stripAt_miss (k : ℕ) (Y : Vec Ideal S256x8192 .f32) (T : Vec Ideal S256x2048 .f32) (r : Fin 256) (q : Fin 8192)
    (h : ¬(2048 * k ≤ q.val ∧ q.val < 2048 * k + 2048)) :
    stripAt ![0, 2048 * k] Y T (ix2 r q) = Y (ix2 r q) := by
  unfold stripAt
  rw [dif_neg (fun H => h (H 1))]

/-- At a point that is not a row tile's last, the body leaves the strip buffer with its own strip overwritten. -/
theorem out2_mid (c : Dev nD) (t : Fin cfg0.N) (h : ¬t.val % 4 = 3) (Y : Vec Ideal S256x8192 .f32) :
    out2 m c t Y = stripAt ![0, 2048 * (t.val % 4)] Y (tileAt m c t) := by
  unfold out2; rw [if_neg h, off_eq]

/-- What the strip buffer may hold when a point after a row tile's first finds it: what the point before left. -/
theorem finds_step (c : Dev nD) (t : Fin cfg0.N) (ht : ¬t.val % 4 = 0) (Y : Vec Ideal S256x8192 .f32)
    (hY : (rdat m c).Finds 2 t Y) :
    ∃ Y', (rdat m c).Finds 2 ⟨t.val - 1, Nat.lt_of_le_of_lt (Nat.sub_le _ _) t.isLt⟩ Y'
      ∧ Y = out2 m c ⟨t.val - 1, Nat.lt_of_le_of_lt (Nat.sub_le _ _) t.isLt⟩ Y' := by
  have h0 : t.val ≠ 0 := fun e => ht (by rw [e])
  rcases ((rdat m c).finds_of_pos (fetch2 t) h0 Y).mp hY with hfl | ⟨Y', hY', hR⟩
  · exfalso
    have := (flush0_2 ⟨t.val - 1, Nat.lt_of_le_of_lt (Nat.sub_le _ _) t.isLt⟩).mp hfl
    have e : (⟨t.val - 1, Nat.lt_of_le_of_lt (Nat.sub_le _ _) t.isLt⟩ : Fin cfg0.N).val = t.val - 1 := rfl
    omega
  · exact ⟨Y', hY', (after2 m c _ _ _).mp hR⟩

/-- Before the normalisation, entry (r, q) of the strip buffer at a row tile's last point is the raw score of block
    q / 2048 at position q % 2048 — whatever the buffer held before the row tile's first point. -/
theorem strip_full (c : Dev nD) (t : Fin cfg0.N) (h3 : t.val % 4 = 3) (Y : Vec Ideal S256x8192 .f32)
    (hY : (rdat m c).Finds 2 t Y) (r : Fin 256) (q : Fin 8192) :
    stripAt ![0, 2048 * (t.val % 4)] Y (tileAt m c t) (ix2 r q)
      = srow m c (t.val / 4) r (q.val / 2048) ⟨q.val % 2048, Nat.mod_lt _ (by norm_num)⟩ := by
  have hN := lt128 t
  have hq := q.isLt
  obtain ⟨Y2, hY2, rfl⟩ := finds_step m c t (by omega) Y hY
  obtain ⟨Y1, hY1, rfl⟩ := finds_step m c ⟨t.val - 1, _⟩ (by show ¬(t.val - 1) % 4 = 0; omega) Y2 hY2
  obtain ⟨Y0, hY0, rfl⟩ := finds_step m c ⟨t.val - 1 - 1, _⟩ (by show ¬(t.val - 1 - 1) % 4 = 0; omega) Y1 hY1
  rw [out2_mid m c ⟨t.val - 1, _⟩ (by show ¬(t.val - 1) % 4 = 3; omega),
    out2_mid m c ⟨t.val - 1 - 1, _⟩ (by show ¬(t.val - 1 - 1) % 4 = 3; omega),
    out2_mid m c ⟨t.val - 1 - 1 - 1, _⟩ (by show ¬(t.val - 1 - 1 - 1) % 4 = 3; omega)]
  have e3 : t.val % 4 = 3 := h3
  have e2 : (t.val - 1) % 4 = 2 := by omega
  have e1 : (t.val - 1 - 1) % 4 = 1 := by omega
  have e0 : (t.val - 1 - 1 - 1) % 4 = 0 := by omega
  have d2 : (t.val - 1) / 4 = t.val / 4 := by omega
  have d1 : (t.val - 1 - 1) / 4 = t.val / 4 := by omega
  have d0 : (t.val - 1 - 1 - 1) / 4 = t.val / 4 := by omega
  simp only [e3, e2, e1, e0]
  by_cases c3 : 2048 * 3 ≤ q.val
  · rw [stripAt_hit 3 _ _ r q ⟨c3, by omega⟩, ← srow_at m c t r, e3]
    exact congrArg₂ (srow m c (t.val / 4) r) (by omega) (Fin.ext (by show q.val - 2048 * 3 = q.val % 2048; omega))
  rw [stripAt_miss 3 _ _ r q (by omega)]
  by_cases c2 : 2048 * 2 ≤ q.val
  · rw [stripAt_hit 2 _ _ r q ⟨c2, by omega⟩, ← srow_at m c ⟨t.val - 1, _⟩ r]
    show srow m c ((t.val - 1) / 4) r ((t.val - 1) % 4) _ = _
    rw [d2, e2]
    exact congrArg₂ (srow m c (t.val / 4) r) (by omega) (Fin.ext (by show q.val - 2048 * 2 = q.val % 2048; omega))
  rw [stripAt_miss 2 _ _ r q (by omega)]
  by_cases c1 : 2048 * 1 ≤ q.val
  · rw [stripAt_hit 1 _ _ r q ⟨c1, by omega⟩, ← srow_at m c ⟨t.val - 1 - 1, _⟩ r]
    show srow m c ((t.val - 1 - 1) / 4) r ((t.val - 1 - 1) % 4) _ = _
    rw [d1, e1]
    exact congrArg₂ (srow m c (t.val / 4) r) (by omega) (Fin.ext (by show q.val - 2048 * 1 = q.val % 2048; omega))
  rw [stripAt_miss 1 _ _ r q (by omega)]
  rw [stripAt_hit 0 _ _ r q ⟨by omega, by omega⟩, ← srow_at m c ⟨t.val - 1 - 1 - 1, _⟩ r]
  show srow m c ((t.val - 1 - 1 - 1) / 4) r ((t.val - 1 - 1 - 1) % 4) _ = _
  rw [d0, e0]
  exact congrArg₂ (srow m c (t.val / 4) r) (by omega) (Fin.ext (by show q.val - 2048 * 0 = q.val % 2048; omega))

/-- What a row tile's last point can leave in the strip buffer, at an entry: the online recurrence's normalisation of
    that entry's raw score. -/
theorem leaves_last (c : Dev nD) (t : Fin cfg0.N) (h3 : t.val % 4 = 3) (X : Vec Ideal S256x8192 .f32)
    (hX : (rdat m c).Leaves 2 t X) (r : Fin 256) (q : Fin 8192) :
    X (ix2 r q) = Ideal.exp (srow m c (t.val / 4) r (q.val / 2048) ⟨q.val % 2048, Nat.mod_lt _ (by norm_num)⟩
      - (runM (srow m c (t.val / 4) r) 4 + Ideal.log (runL (srow m c (t.val / 4) r) 4))) := by
  obtain ⟨Y, hY, hR⟩ := hX
  rw [(after2 m c t Y X).mp hR]
  unfold out2
  rw [if_pos h3, pay1_apply, off_eq, strip_full m c t h3 Y hY r q]
  obtain ⟨hM, hL⟩ := scAt_row m c r t.val t.isLt
  rw [hM, hL, h3]

end Cert.KernelIdeal.Val

end
-- ==== Proof.Softmax.lean ====
/-
  The row softmax on the extended reals, in the two spellings the programs use.

  One row of real scores arrives in `n + 1` blocks over a finite nonempty index type `J`. The online recurrence ends
  with the running maximum `M` (the maximum of the row) and the running denominator `L = Σ e^(s - M)`, a positive real,
  and normalises by `e^(x - (M + log L))`; the two-pass spelling divides `e^(x - M)` by the same sum. Since
  `e^(-log L) = 1 / L` for a positive real `L`, the two agree.
  Also: a supremum and a sum over `Fin (a * b)` taken block by block.
-/
import proofs.«122358_j90795608637906_2_alg».proof.Proof.LibOnlineSoftmax

noncomputable section

open scoped BigOperators

namespace Cert.Softmax

open Idealize.ShloMosaic Cert.Attn.RealLaw Cert.Attn.Online

variable {J : Type*} [Fintype J] [Nonempty J]

/-- `e^(x - (M + log L)) = e^(x - M) / L` with `M`, `L` the online recurrence's final state over real scores. -/
theorem online_eq_div (s' : ℕ → J → ℝ) (n : ℕ) (x : ℝ) :
    Ideal.exp ((x : EReal) - (runM (fun k j => ((s' k j : ℝ) : EReal)) (n + 1)
        + Ideal.log (runL (fun k j => ((s' k j : ℝ) : EReal)) (n + 1))))
      = Ideal.div (Ideal.exp ((x : EReal) - runM (fun k j => ((s' k j : ℝ) : EReal)) (n + 1)))
          (∑ k ∈ Finset.range (n + 1), ∑ j, Ideal.exp (((s' k j : ℝ) : EReal) - runM (fun k j => ((s' k j : ℝ) : EReal)) (n + 1))) := by
  obtain ⟨μ, hμ⟩ := runM_real s' n
  rw [runL_closed, hμ]
  simp only [← EReal.coe_sub, Ideal.exp_coe, ← coe_sum]
  have hΛ : 0 < ∑ k ∈ Finset.range (n + 1), ∑ j : J, Real.exp (s' k j - μ) :=
    Finset.sum_pos (fun k _ => Finset.sum_pos (fun j _ => Real.exp_pos _) Finset.univ_nonempty) Finset.nonempty_range_add_one
  rw [Ideal.log_coe, if_neg (not_le.mpr hΛ), Ideal.div_coe hΛ.ne', ← EReal.coe_add, ← EReal.coe_sub, Ideal.exp_coe,
    ← EReal.coe_mul]
  refine congrArg _ ?_
  rw [show x - (μ + Real.log (∑ k ∈ Finset.range (n + 1), ∑ j : J, Real.exp (s' k j - μ)))
      = (x - μ) - Real.log (∑ k ∈ Finset.range (n + 1), ∑ j : J, Real.exp (s' k j - μ)) by ring,
    Real.exp_sub, Real.exp_log hΛ, div_eq_mul_one_div]

/-- A supremum over the first `n` naturals is the supremum over `Fin n`. -/
theorem sup_range_eq {α : Type*} [SemilatticeSup α] [OrderBot α] (n : ℕ) (g : ℕ → α) :
    (Finset.range n).sup g = Finset.univ.sup fun k : Fin n => g k.val :=
  le_antisymm
    (Finset.sup_le fun k hk => Finset.le_sup (f := fun k : Fin n => g k.val) (Finset.mem_univ ⟨k, Finset.mem_range.mp hk⟩))
    (Finset.sup_le fun k _ => Finset.le_sup (f := g) (Finset.mem_range.mpr k.isLt))

/-- A supremum over `Fin (a * b)` block by block: position `j + b * k` is entry `j` of block `k`. -/
theorem sup_blocks {α : Type*} [SemilatticeSup α] [OrderBot α] (a b : ℕ) (f : Fin (a * b) → α) :
    Finset.univ.sup f = Finset.univ.sup fun k : Fin a => Finset.univ.sup fun j : Fin b => f (finProdFinEquiv (k, j)) := by
  rw [← Finset.map_univ_equiv (finProdFinEquiv : Fin a × Fin b ≃ Fin (a * b)), Finset.sup_map, ← Finset.univ_product_univ,
    Finset.sup_product_left]
  rfl

/-- A sum over `Fin (a * b)` block by block. -/
theorem sum_blocks {β : Type*} [AddCommMonoid β] (a b : ℕ) (f : Fin (a * b) → β) :
    ∑ c, f c = ∑ k : Fin a, ∑ j : Fin b, f (finProdFinEquiv (k, j)) := by
  rw [← Equiv.sum_comp (finProdFinEquiv : Fin a × Fin b ≃ Fin (a * b)) f, Fintype.sum_prod_type]

end Cert.Softmax

end
-- ==== Proof.LibRelCover.lean ====
/-
  Relational proof data of a pipelined kernel (what the body leaves in a staging buffer constrained, not named):
  the arrays' contents after the write-backs, read block by block.
-/
import Idealize.ShloMosaic.Lib.Pipeline.Cells
import Idealize.ShloMosaic.Lib.Pipeline.Value

noncomputable section

namespace Idealize.ShloMosaic.Pipeline

open Idealize.SL Idealize.SL.RA

variable {nD : Nat} {τ : Topo} {sig : RefSig} {Val : EltTy → Type}
variable {Ix : Type} [DecidableEq Ix] {Name : Type} [DecidableEq Name] {U : Type} [URA U] {Lvl : Type}
variable {Λ₀ : SL.Sem.Labels} {cfg : Cfg sig Λ₀} {c : Dev nD} (rd : RDat τ Val Ix Name U Lvl cfg c)

/-- POINTWISE OUTPUTS, relationally. If whatever the body may leave in window `w`'s buffer at a point that writes
    back is, on the part the write-back moves, that point's block of ONE whole-array contents `G` (`hG`), then any
    contents the array may hold after the write-backs below `n` agree with `G` on every block written back
    below `n`: later points that cover an index again write the same value, earlier ones are overwritten. -/
theorem RDat.ArrAt_apply_of_mem (w : Fin cfg.W) (G : Buf Val ((cfg.win w).arr.view.loc (c.tc : Thread nD τ)))
    (hG : ∀ t X, (cfg.win w).flush t = true → rd.Leaves w t X →
      (cfg.win w).cut (cfg.grid.coords t) X = ((cfg.win w).blk t).view.read Val G) :
    ∀ (n : Nat) (F : Buf Val ((cfg.win w).arr.view.loc (c.tc : Thread nD τ))), rd.ArrAt w n F →
      ∀ (t : Fin cfg.N) (i : ((cfg.win w).arr.view.loc (c.tc : Thread nD τ)).2.ty.Idx),
        t.val < n → (cfg.win w).flush t = true → i ∈ ((cfg.win w).blk t).view.set → F i = G i
  | 0, _, _, _, _, ht, _, _ => absurd ht (Nat.not_lt_zero _)
  | n + 1, F, hF, t, i, ht, hf, hi => by
    by_cases hn : n < cfg.N
    swap
    · have hF' : rd.ArrAt w n F := by
        have e : rd.ArrAt w (n + 1) = rd.ArrAt w n := by
          show (if h : n < cfg.N then _ else rd.ArrAt w n) = _
          rw [dif_neg hn]
        rwa [e] at hF
      exact RDat.ArrAt_apply_of_mem w G hG n F hF' t i (by have := t.isLt; omega) hf hi
    have e := rd.ArrAt_succ w ⟨n, hn⟩
    rw [show (⟨n, hn⟩ : Fin cfg.N).val + 1 = n + 1 from rfl] at e
    rw [e] at hF
    by_cases hfn : (cfg.win w).flush ⟨n, hn⟩ = true
    · rw [if_pos hfn] at hF
      obtain ⟨G₀, X, hG₀, hX, rfl⟩ := hF
      rw [hG _ X hfn hX, View.write_read_eq_piecewise]
      by_cases hin : i ∈ ((cfg.win w).blk ⟨n, hn⟩).view.setOn Finset.univ
      · rw [Finset.piecewise_eq_of_mem _ _ _ hin]
      · rw [Finset.piecewise_eq_of_notMem _ _ _ hin]
        have htn : t.val ≠ n := fun e => hin (by rw [View.setOn_univ]; have : t = ⟨n, hn⟩ := Fin.ext e; exact this ▸ hi)
        exact RDat.ArrAt_apply_of_mem w G hG n G₀ hG₀ t i (by omega) hf hi
    · rw [if_neg hfn] at hF
      have htn : t.val ≠ n := fun e => hfn (by have : t = ⟨n, hn⟩ := Fin.ext e; exact this ▸ hf)
      exact RDat.ArrAt_apply_of_mem w G hG n F hF t i (by omega) hf hi

/-- THE WHOLE-ARRAY POST, relationally: when moreover every index of the array is in some flushing point's block,
    the array can only end holding `G`. -/
theorem RDat.ArrAt_eq_of_cover (w : Fin cfg.W) (G : Buf Val ((cfg.win w).arr.view.loc (c.tc : Thread nD τ)))
    (hG : ∀ t X, (cfg.win w).flush t = true → rd.Leaves w t X →
      (cfg.win w).cut (cfg.grid.coords t) X = ((cfg.win w).blk t).view.read Val G)
    (hcover : ∀ i : ((cfg.win w).arr.view.loc (c.tc : Thread nD τ)).2.ty.Idx,
      ∃ t : Fin cfg.N, (cfg.win w).flush t = true ∧ i ∈ ((cfg.win w).blk t).view.set)
    (F : Buf Val ((cfg.win w).arr.view.loc (c.tc : Thread nD τ))) (hF : rd.ArrAt w cfg.N F) : F = G :=
  funext fun i => by
    obtain ⟨t, hf, hi⟩ := hcover i
    exact RDat.ArrAt_apply_of_mem rd w G hG cfg.N F hF t i t.isLt hf hi

end Idealize.ShloMosaic.Pipeline

end
-- ==== Proof.KI.Final.lean ====
/-
  The kernel's result array is the specification.

  One row: the online recurrence over the row's four blocks of real scores normalises entry q to
  e^(s_q - (M + log L)) = e^(s_q - M) / Σ_q' e^(s_q' - M), M the row's maximum — the row softmax (`row_softmax`).
  A row tile's last point can therefore only hand back, in the output strip buffer, the row tile's block of the
  specification; those blocks tile the result array, so after the write-backs the array is the specification.
-/
import proofs.«122358_j90795608637906_2_alg».proof.Proof.KI.Chain
import proofs.«122358_j90795608637906_2_alg».proof.Proof.Softmax
import proofs.«122358_j90795608637906_2_alg».proof.Proof.LibRelCover

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (RDat)
open Cert.KernelIdeal Cert.KernelIdeal.Gen Cert.KernelIdeal.Body Cert.Spec

variable (m : (ℓ : Loc nD τ sig) → Buf (Elt Ideal) ℓ)

open Cert.Attn.Online Cert.Attn.RealLaw Cert.Softmax

/-- A score of real entries is real. -/
theorem score_real (a b : SIn.Idx → EReal) (ha : ∀ i, IsReal (a i)) (hb : ∀ i, IsReal (b i)) (r q : Fin 8192) :
    IsReal (score a b r q) :=
  isReal_sum_mul (fun d => ha (ix2 r d)) (fun d => hb (ix2 q d))

/-- The online normalisation of a row of 8192 real scores taken in four blocks of 2048 is the row softmax. -/
theorem row_softmax (s : ℕ → Fin 2048 → EReal) (f : Fin 8192 → EReal) (hf : ∀ q, IsReal (f q))
    (hs : ∀ (k : Fin 4) (j : Fin 2048), s k.val j = f (finProdFinEquiv (k, j)))
    (hs' : ∀ k j, IsReal (s k j)) (q : Fin 8192) :
    Ideal.exp (s (q.val / 2048) ⟨q.val % 2048, Nat.mod_lt _ (by norm_num)⟩ - (runM s 4 + Ideal.log (runL s 4)))
      = Ideal.div (Ideal.exp (f q - Finset.univ.sup f)) (∑ c : Fin 8192, Ideal.exp (f c - Finset.univ.sup f)) := by
  have hq := q.isLt
  have hM : runM s 4 = Finset.univ.sup f := by
    rw [runM_eq_sup, sup_range_eq, sup_blocks 4 2048 f]
    exact congrArg Finset.univ.sup (funext fun k => congrArg Finset.univ.sup (funext fun j => hs k j))
  have hsq : s (q.val / 2048) ⟨q.val % 2048, Nat.mod_lt _ (by norm_num)⟩ = f q := by
    have := hs ⟨q.val / 2048, by omega⟩ ⟨q.val % 2048, Nat.mod_lt _ (by norm_num)⟩
    rw [this]
    refine congrArg f (Fin.ext ?_)
    rw [finProdFinEquiv_apply_val]
    show q.val % 2048 + 2048 * (q.val / 2048) = q.val
    exact Nat.mod_add_div _ _
  have hsum : ∀ μ : EReal, (∑ k ∈ Finset.range 4, ∑ j, Ideal.exp (s k j - μ)) = ∑ c : Fin 8192, Ideal.exp (f c - μ) := fun μ => by
    rw [Finset.sum_range (fun k => ∑ j, Ideal.exp (s k j - μ)), sum_blocks 4 2048 (fun c => Ideal.exp (f c - μ))]
    exact Finset.sum_congr rfl fun k _ => Finset.sum_congr rfl fun j _ => by rw [hs k j]
  choose s' hs'' using hs'
  obtain ⟨x, hx⟩ := hf q
  have es : s = fun k j => ((s' k j : ℝ) : EReal) := funext fun k => funext fun j => hs'' k j
  rw [hsq, ← hM, ← hsum, hx, es]
  exact online_eq_div s' 3 x

variable (c : Dev nD) (hA : ∀ i, IsReal (argA m c i)) (hB : ∀ i, IsReal (argB m c i))

include hA hB in
/-- What a row tile's last point can hand back is the row tile's block of the specification. -/
theorem leaves_G (t : Fin cfg0.N) (h3 : t.val % 4 = 3) (X : Vec Ideal S256x8192 .f32) (hX : (rdat m c).Leaves 2 t X)
    (r : Fin 256) (q : Fin 8192) :
    X (ix2 r q) = G (argA m c) (argB m c) (ix2 (rowOf t r) q) := by
  have hN := lt128 t
  rw [leaves_last m c t h3 X hX r q]
  show _ = Ideal.div (Ideal.exp (score (argA m c) (argB m c) (rowOf t r) q - Finset.univ.sup fun q' => score (argA m c) (argB m c) (rowOf t r) q'))
    (∑ q' : Fin 8192, Ideal.exp (score (argA m c) (argB m c) (rowOf t r) q' - Finset.univ.sup fun q' => score (argA m c) (argB m c) (rowOf t r) q'))
  refine row_softmax (srow m c (t.val / 4) r) (fun q' => score (argA m c) (argB m c) (rowOf t r) q')
    (fun q' => score_real _ _ hA hB _ _) (fun k j => ?_) (fun k j => ?_) q
  · have hk := k.isLt
    have hlt : 4 * (t.val / 4) + k.val < cfg0.N :=
      lt_of_lt_of_eq (by omega : 4 * (t.val / 4) + k.val < 128) (show cfg0.N = 128 from N_0).symm
    unfold srow
    rw [dif_pos hlt, tile_apply]
    refine congrArg₂ (score (argA m c) (argB m c)) (Fin.ext ?_) (Fin.ext ?_)
    · show 256 * ((4 * (t.val / 4) + k.val) / 4) + r.val = 256 * (t.val / 4) + r.val
      omega
    · rw [finProdFinEquiv_apply_val]
      show 2048 * ((4 * (t.val / 4) + k.val) % 4) + j.val = j.val + 2048 * k.val
      omega
  · unfold srow
    split
    · rw [tile_apply]; exact score_real _ _ hA hB _ _
    · exact ⟨0, EReal.coe_zero.symm⟩

/-- The specification as contents of the result array's buffer. -/
abbrev Gbuf : Buf (Elt Ideal) ((cfg0.win 2).arr.view.loc (c.tc : Thread nD τ)) := G (argA m c) (argB m c)

include hA hB in
theorem flushed_G (t : Fin cfg0.N) (X : (cfg0.win 2).block.Idx → Elt Ideal (cfg0.win 2).elt) (hf : (cfg0.win 2).flush t = true)
    (hX : (rdat m c).Leaves 2 t X) :
    (cfg0.win 2).cut (cfg0.grid.coords t) X = ((cfg0.win 2).blk t).view.read (Elt Ideal) (Gbuf m c) := by
  have h3 := (flush0_2 t).mp hf
  have hi := idx2 t
  show X = _
  funext y
  obtain ⟨r, q, rfl⟩ : ∃ (r : Fin 256) (q : Fin 8192), y = ix2 r q := ⟨y 0, y 1, eq_ix2 (n0 := 256) (n1 := 8192) y⟩
  rw [View.read_apply]
  show X (ix2 r q) = G (argA m c) (argB m c) _
  rw [leaves_G m c hA hB t h3 X hX r q]
  congr 1
  funext a
  apply Fin.ext
  match a with
  | ⟨0, _⟩ => show 256 * (t.val / 4) + r.val = win0_2.index t 0 * 256 + 1 * r.val; rw [hi.1]; omega
  | ⟨1, _⟩ => show q.val = win0_2.index t 1 * 8192 + 1 * q.val; rw [hi.2]; omega

theorem mem_blk2 (t : Fin cfg0.N) (i : S8192x8192.Idx) :
    i ∈ ((cfg0.win 2).blk t).view.set ↔ ∀ a : Fin 2, win0_2.index t a * S256x8192.size a ≤ (i a).val
      ∧ (i a).val < win0_2.index t a * S256x8192.size a + S256x8192.size a := by
  show i ∈ ((View.whole main_v2).slice (win0_2.rect t)).set ↔ _
  rw [View.set_slice_whole, Rect.mem_set_unit]
  exact Iff.rfl

/-- The row tiles' blocks cover the result array. -/
theorem covered (i : S8192x8192.Idx) : ∃ t : Fin cfg0.N, (cfg0.win 2).flush t = true ∧ i ∈ ((cfg0.win 2).blk t).view.set := by
  have h0 : (i 0).val < 8192 := (i 0).isLt
  have h1 : (i 1).val < 8192 := (i 1).isLt
  have hlt : 4 * ((i 0).val / 256) + 3 < cfg0.N :=
    lt_of_lt_of_eq (by omega : 4 * ((i 0).val / 256) + 3 < 128) (show cfg0.N = 128 from N_0).symm
  refine ⟨⟨4 * ((i 0).val / 256) + 3, hlt⟩, (flush0_2 _).mpr (by show (4 * ((i 0).val / 256) + 3) % 4 = 3; omega), ?_⟩
  rw [mem_blk2]
  have hi := idx2 ⟨4 * ((i 0).val / 256) + 3, hlt⟩
  have e0 : win0_2.index ⟨4 * ((i 0).val / 256) + 3, hlt⟩ 0 = (i 0).val / 256 := by rw [hi.1]; show (4 * ((i 0).val / 256) + 3) / 4 = _; omega
  intro a
  match a with
  | ⟨0, _⟩ => show win0_2.index _ 0 * 256 ≤ (i 0).val ∧ (i 0).val < win0_2.index _ 0 * 256 + 256; rw [e0]; omega
  | ⟨1, _⟩ => show win0_2.index _ 1 * 8192 ≤ (i 1).val ∧ (i 1).val < win0_2.index _ 1 * 8192 + 8192; rw [hi.2]; omega

/-- The kernel's run with its result named: the result array ends at the row softmax of the scores of the two
    arguments, the arguments unchanged — when every entry of both arguments is a real number. -/
theorem run (ρ : Dev nD → PrngReg)
    (hre : ∀ c : Dev nD, (∀ i, IsReal (argA m c i)) ∧ ∀ i, IsReal (argB m c i)) :
    θ_run defs (onTc (τ := τ) (main (F := Ideal))) ⟨m, fun _ => 0, ρ⟩ (fun r => ∀ c : Dev nD,
      r.2.mem ((c.tc : Thread nD τ).loc main_v2) = G (argA m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨Pipeline.RDat.ArrAt_eq_of_cover (rdat m c) 2 (Gbuf m c) (fun t X hf hX => flushed_G m c (hre c).1 (hre c).2 t X hf hX)
        (covered) _ ((h c).1 2),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.KernelIdeal.Val

end
-- ==== Proof.LibRowMin.lean ====
/-
  Minima along one axis on the extended reals, and the host's one-axis reductions of a matrix read at a row.
  A lane minimum over the second axis of a matrix, read at a row: the fold of `min`, from the value of the
  accumulator's pattern, over that row's entries. A host reduction by minimum or by maximum over the second axis of an
  `[a, b]` matrix, read at row `r`: the fold, from the initial value, over that row's entries. General in the extents.
-/
import Idealize.ShloMosaic.Lib.ValueIdx
import Idealize.ShloMosaic.PureOps.Ideal.Laws

noncomputable section

namespace Cert.LibRowMin

open Idealize.ShloMosaic Idealize.ShloMosaic.ValueIdx

/-- On the extended reals a lane minimum over ONE axis is, at a reduced index, the fold of `min` from the accumulator's
    value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- On the extended reals a lane minimum over the second axis of an `[a, b]` matrix is, at row `r`, the fold of `min`
    from the accumulator's value over that row's entries. -/
theorem multiReduction_minimumf_rows {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.minimumf.neutral .f32 hφ) (r : Fin a) :
    multiReduction .minimumf [1] ⟨1, ![a]⟩ src acc h hφ hacc (ix1 r)
      = (Finset.univ : Finset (Fin b)).fold min (Ideal.ofBits .f32 acc) (fun d => src (ix2 r d)) := by
  refine (multiReduction_minimumf_single src acc h hφ hacc (ix1 r)).trans ?_
  refine congrArg (fun f => (Finset.univ : Finset (Fin b)).fold min (Ideal.ofBits .f32 acc) f) (funext fun d => ?_)
  refine congrArg src (funext fun ax => Fin.ext ?_)
  match ax with
  | ⟨0, _⟩ => rfl
  | ⟨1, _⟩ => rfl

/-- The host's reduction by minimum over the second axis of an `[a, b]` matrix, read at row `r`: the fold of `min` from the
    initial value over that row's entries. -/
theorem hostReduce_minimumf_rows {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.minimumf (F := Ideal) (φ := .f32)) x init h' hu (ix1 r)
      = (Finset.univ : Finset (Fin b)).fold min (init (Shape.Idx.first hu)) (fun d => x (ix2 r d)) := by
  refine (Host.reduce_eq_fold_single (FloatOps.minimumf (F := Ideal) (φ := .f32)) x init h' h hu (ix1 r)).trans ?_
  refine congrArg (fun f => (Finset.univ : Finset (Fin b)).fold min (init (Shape.Idx.first hu)) f) (funext fun d => ?_)
  refine congrArg x (funext fun ax => Fin.ext ?_)
  match ax with
  | ⟨0, _⟩ => rfl
  | ⟨1, _⟩ => rfl

/-- The host's reduction by maximum over the second axis of an `[a, b]` matrix, read at row `r`: the fold of `max` from the
    initial value over that row's entries. -/
theorem hostReduce_maximumf_rows {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun d => x (ix2 r d)) := by
  refine (Host.reduce_eq_fold_single (FloatOps.maximumf (F := Ideal) (φ := .f32)) x init h' h hu (ix1 r)).trans ?_
  refine congrArg (fun f => (Finset.univ : Finset (Fin b)).fold max (init (Shape.Idx.first hu)) f) (funext fun d => ?_)
  refine congrArg x (funext fun ax => Fin.ext ?_)
  match ax with
  | ⟨0, _⟩ => rfl
  | ⟨1, _⟩ => rfl

end Cert.LibRowMin

end
-- ==== Proof.RefValue.lean ====
/-
  The reference program's result is the specification: the host computes the score matrix by one dot_general, the
  row maximum by a max-reduce from minus infinity (and a redundant maximum against minus infinity), subtracts,
  exponentiates, sums each row from zero and divides.
-/
import proofs.«122358_j90795608637906_2_alg».proof.Proof.Gen.ReferenceIdeal.Read
import proofs.«122358_j90795608637906_2_alg».proof.Proof.Spec
import proofs.«122358_j90795608637906_2_alg».proof.Proof.LibRowMin
import proofs.«122358_j90795608637906_2_alg».proof.Proof.LibOnlineSoftmax

set_option maxRecDepth 16384

noncomputable section

open scoped BigOperators

namespace Cert.RefValue

open Cert.ReferenceIdeal Cert.ReferenceIdeal.Gen Cert.ReferenceIdeal.Read Idealize.ShloMosaic Idealize.ShloMosaic.ValueIdx Cert.Spec

/-- The score matrix at an entry. -/
theorem scores_apply (x0 x1 : (⟨S8192x1024, .f32⟩ : BufTy).Contents (Elt Ideal)) (r c : Fin 8192) :
    val_main_v0 (F := Ideal) x0 x1 (ix2 r c) = score x0 x1 r c := by
  rw [val_main_v0_apply]
  refine Finset.sum_congr rfl fun k _ => ?_
  have el : lidx_main_v0 (ix2 r c) k = ix2 r k := funext fun a => Fin.ext (by match a with | ⟨0, _⟩ => rfl | ⟨1, _⟩ => rfl)
  have er : ridx_main_v0 (ix2 r c) k = ix2 c k := funext fun a => Fin.ext (by match a with | ⟨0, _⟩ => rfl | ⟨1, _⟩ => rfl)
  rw [el, er]

/-- The host's row maximum is the supremum of the row's scores. -/
theorem rowmax_apply (x0 x1 : (⟨S8192x1024, .f32⟩ : BufTy).Contents (Elt Ideal)) (r : Fin 8192) :
    val_main_v3 (F := Ideal) x0 x1 (ix1 r) = rowMax x0 x1 r := by
  rw [val_main_v3_apply, val_main_v2_apply, val_main_cst_0_apply]
  unfold val_main_v1
  rw [Cert.LibRowMin.hostReduce_maximumf_rows _ _ reducesTo_S8192x8192_S8192_d1 (by decide) h_S_ r, val_main_cst_apply]
  simp only [Ideal.ofBits_def, Ideal.maximumf_def, ofBits_neg_inf, Cert.Attn.Online.fold_max_bot, scores_apply]
  exact max_eq_right bot_le

theorem ref_eq_G (x0 x1 : (⟨S8192x1024, .f32⟩ : BufTy).Contents (Elt Ideal)) :
    val_main_v11 (F := Ideal) x0 x1 = G x0 x1 := by
  funext i
  obtain ⟨r, c, rfl⟩ : ∃ (r : Fin 8192) (c : Fin 8192), i = ix2 r c := ⟨i 0, i 1, eq_ix2 i⟩
  have e5 : idx_main_v4 (idx_main_v5 (ix2 r c)) = ix1 r := funext fun a => Fin.ext (by match a with | ⟨0, _⟩ => rfl)
  have e10 : idx_main_v9 (idx_main_v10 (ix2 r c)) = ix1 r := funext fun a => Fin.ext (by match a with | ⟨0, _⟩ => rfl)
  have e8 : ∀ k : Fin 8192, idx_main_v8 (ix1 r) k = ix2 r k := fun k => funext fun a => Fin.ext (by match a with | ⟨0, _⟩ => rfl | ⟨1, _⟩ => rfl)
  have e5' : ∀ k : Fin 8192, idx_main_v4 (idx_main_v5 (ix2 r k)) = ix1 r := fun k => funext fun a => Fin.ext (by match a with | ⟨0, _⟩ => rfl)
  rw [val_main_v11_apply, val_main_v10_apply, val_main_v9_apply, e10, val_main_v8_apply, val_main_cst_1_apply]
  simp only [e8, val_main_v7_apply, val_main_v6_apply, val_main_v5_apply, val_main_v4_apply, e5, e5', rowmax_apply, scores_apply,
    Ideal.hostDivf_def, Ideal.hostUnary_exp_def, Ideal.subf_def, Ideal.ofBits_def, Ideal.ofBits_zero_f32, zero_add]
  rfl

end Cert.RefValue

end
-- ==== Proof.Finite.lean ====
/-
  The precondition read back: every entry of both arguments is a real number (neither infinity), because its absolute
  value compares below plus infinity.
-/
import proofs.«122358_j90795608637906_2_alg».proof.Pre_finite_inputs
import proofs.«122358_j90795608637906_2_alg».proof.Proof.LibRealLaw
import Idealize.ShloMosaic.Lib.ReduceAll
import Idealize.ShloMosaic.Lib.Pipeline.Value
import Idealize.ShloMosaic.PureOps.Ideal

set_option maxRecDepth 16384

noncomputable section

namespace Cert.Finite

open Idealize.ShloMosaic Cert.Pre_finite_inputs Cert.Attn.RealLaw

instance : Subsingleton S_.Idx := ⟨fun a b => funext fun d => d.elim0⟩

/-- An extended real whose absolute value is below plus infinity is a real number. -/
theorem real_of_abs_lt (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

variable [hP : Cert.Pre_finite_inputs.Facts]

/-- The printed predicate holds exactly when every entry of both arrays is real; here the direction used. -/
theorem args_real (a b : FVec Ideal S8192x1024 .f32) (h : fn (F := Ideal) a b = fun _ => 1#1) :
    (∀ i, IsReal (a i)) ∧ (∀ i, IsReal (b i)) := by
  have h0 := congrFun h (fun d => d.elim0)
  dsimp only [fn] at h0
  obtain ⟨h1, h2⟩ := IntOp.andi_eq_one.mp h0
  have hc : ∀ i : S8192x1024.Idx, broadcastInDim S8192x1024 ![] Facts.bcast_S_S8192x1024 (constant (F := Ideal) S_ .f32 0x7F800000#32) i
      = Ideal.ofBits .f32 0x7F800000#32 := fun i =>
    broadcastInDim_apply _ Facts.bcast_S_S8192x1024 (constant (F := Ideal) S_ .f32 0x7F800000#32) i (fun d => d.elim0) (fun d => d.elim0)
  refine ⟨fun i => ?_, fun i => ?_⟩
  · have e := Host.reduce_andi_all _ _ _ _ _ h1 i
    refine real_of_abs_lt (a i) ?_
    rw [← hc i]; exact e
  · have e := Host.reduce_andi_all _ _ _ _ _ h2 i
    refine real_of_abs_lt (b i) ?_
    rw [← hc i]; exact e

end Cert.Finite

end
-- ==== Proof.lean ====
/-
  A fused row softmax: softmax over each row of the 8192 x 8192 score matrix A·Bᵀ of two 8192 x 1024 arguments.

  The kernel sweeps each 256-row tile across four 2048-column tiles. At each it forms the tile of raw scores by one
  matrix product, updates a running row maximum m and a running denominator l (the online softmax recurrence, kept in
  two scratch columns, reset at the first column tile) and stores the raw scores into its column strip of the resident
  256 x 8192 output block; at the last column tile it replaces the block by e^(score - (m + log l)). The reference
  computes the scores by one product, the row maximum M, e^(score - M), the row sums, and the quotient.
  On the extended reals, for real (finite) inputs, the recurrence ends at m = M and l = Σ e^(score - M), a positive
  real, and e^(x - (M + log l)) = e^(x - M) / l: the two programs compute the same array.

  The frames: the body is run symbolically in its three control cases (first, middle, last column tile), at any float
  model; between points the region keeps the two scratch columns at the recurrence's state, and the output block's
  buffer is constrained relationally (each point overwrites its own strip of whatever the buffer held). The word-level
  program's frame and the idealized program's are the same proof read at the two float models.
-/
import proofs.«122358_j90795608637906_2_alg».proof.Defs
import proofs.«122358_j90795608637906_2_alg».proof.Proof.Gen.Kernel
import proofs.«122358_j90795608637906_2_alg».proof.Proof.Gen.KernelIdeal
import proofs.«122358_j90795608637906_2_alg».proof.Proof.Gen.ReferenceIdeal
import proofs.«122358_j90795608637906_2_alg».proof.Proof.Gen.ReferenceIdeal.Run
import proofs.«122358_j90795608637906_2_alg».proof.Proof.Gen.ReferenceIdeal.Read
import proofs.«122358_j90795608637906_2_alg».proof.Proof.Gen.Pre_finite_inputs
import proofs.«122358_j90795608637906_2_alg».proof.Proof.K.Data
import proofs.«122358_j90795608637906_2_alg».proof.Proof.KI.Final
import proofs.«122358_j90795608637906_2_alg».proof.Proof.RefValue
import proofs.«122358_j90795608637906_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Body.frame (F := Bits) m ρ

theorem frame_ki : Cert.frame_KernelIdeal := fun m ρ _ => Cert.KernelIdeal.Body.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the row softmax of the arguments' score matrix: the kernel by the online
    recurrence (for real inputs, which the precondition gives), the reference directly. -/
theorem algebraic : Cert.algebraic_KernelIdeal_ReferenceIdeal := by
  intro m ρ m' ρ' hpre hagree
  have hre : ∀ c : Dev Cert.KernelIdeal.nD, (∀ i, Cert.Attn.RealLaw.IsReal (Cert.KernelIdeal.Val.argA m c i))
      ∧ ∀ i, Cert.Attn.RealLaw.IsReal (Cert.KernelIdeal.Val.argB m c i) := fun c =>
    Cert.Finite.args_real _ _ (hpre c)
  refine ⟨fun c => Cert.Spec.G (Cert.KernelIdeal.Val.argA m c) (Cert.KernelIdeal.Val.argB m c),
    Cert.KernelIdeal.Val.run m ρ hre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.RefValue.ref_eq_G, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
